-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S16384x8192 : Shape := ⟨2, ![16384, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  main_v53

def fn_part2 {F : FTy → Type} [FloatOps F] (main_arg7 : FVec F S16384x8192 .f32) (main_arg8 : FVec F S8192 .f32) (main_arg9 : FVec F S16384x8192 .f32) (main_arg10 : FVec F S8192 .f32) (main_v33 : IVec S_ 1) : IVec S_ 1 :=
  let main_v34 : FVec F S16384x8192 .f32 := Host.absf main_arg7
  let main_cst_12 : FVec F S_ .f32 := constant S_ .f32 0x7F800000#32
  let main_v35 : FVec F S16384x8192 .f32 := broadcastInDim S16384x8192 ![] bcast_S_S16384x8192 main_cst_12
  let main_v36 : IVec S16384x8192 1 := cmpf .olt main_v34 main_v35
  let main_c_13 : IVec S_ 1 := constantI S_ 1 1#1
  let main_v37 : IVec S_ 1 := (fun x v => Host.reduce IntOp.andi x v reducesTo_S16384x8192_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S16384x8192 .f32 := Host.absf main_arg9
  let main_cst_16 : FVec F S_ .f32 := constant S_ .f32 0x7F800000#32
  let main_v45 : FVec F S16384x8192 .f32 := broadcastInDim S16384x8192 ![] bcast_S_S16384x8192 main_cst_16
  let main_v46 : IVec S16384x8192 1 := cmpf .olt main_v44 main_v45
  let main_c_17 : IVec S_ 1 := constantI S_ 1 1#1
  let main_v47 : IVec S_ 1 := (fun x v => Host.reduce IntOp.andi x v reducesTo_S16384x8192_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_v48 main_v49 main_v50

def fn_part1 {F : FTy → Type} [FloatOps F] (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) (main_v13 : IVec S_ 1) (main_v16 : IVec S16384x8192 1) : IVec S_ 1 :=
  let main_c_5 : IVec S_ 1 := constantI S_ 1 1#1
  let main_v17 : IVec S_ 1 := (fun x v => Host.reduce IntOp.andi x v reducesTo_S16384x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S16384x8192 .f32 := Host.absf main_arg5
  let main_cst_8 : FVec F S_ .f32 := constant S_ .f32 0x7F800000#32
  let main_v25 : FVec F S16384x8192 .f32 := broadcastInDim S16384x8192 ![] bcast_S_S16384x8192 main_cst_8
  let main_v26 : IVec S16384x8192 1 := cmpf .olt main_v24 main_v25
  let main_c_9 : IVec S_ 1 := constantI S_ 1 1#1
  let main_v27 : IVec S_ 1 := (fun x v => Host.reduce IntOp.andi x v reducesTo_S16384x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x8192 .f32) (main_arg1 : FVec F S1x8192 .f32) (main_arg2 : FVec F S1x8192 .f32) (main_arg3 : FVec F S16384x8192 .f32) (main_arg4 : FVec F S8192 .f32) (main_arg5 : FVec F S16384x8192 .f32) (main_arg6 : FVec F S8192 .f32) (main_arg7 : FVec F S16384x8192 .f32) (main_arg8 : FVec F S8192 .f32) (main_arg9 : FVec F S16384x8192 .f32) (main_arg10 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S16384x8192 .f32 := Host.absf main_arg3
  let main_cst_4 : FVec F S_ .f32 := constant S_ .f32 0x7F800000#32
  let main_v15 : FVec F S16384x8192 .f32 := broadcastInDim S16384x8192 ![] bcast_S_S16384x8192 main_cst_4
  let main_v16 : IVec S16384x8192 1 := cmpf .olt main_v14 main_v15
  fn_part1 (F := F) main_arg4 main_arg5 main_arg6 main_arg7 main_arg8 main_arg9 main_arg10 main_v13 main_v16
-- ==== Kernel.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S5x8192 : Shape := ⟨2, ![5, 8192]⟩
abbrev S1x2048 : Shape := ⟨2, ![1, 2048]⟩
abbrev S2048x512 : Shape := ⟨2, ![2048, 512]⟩
abbrev S5x512 : Shape := ⟨2, ![5, 512]⟩
abbrev S1x512 : Shape := ⟨2, ![1, 512]⟩

abbrev nBuf : Space → Nat
  | .hbm => 20
  | .vmem => 18
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S5x8192, .f32⟩
  | .hbm, ⟨19, _⟩ => ⟨S1x8192, .f32⟩
  | .local _ .vmem, ⟨0, _⟩ => ⟨S1x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S5x512, .f32⟩
  | .local _ .vmem, ⟨11, _⟩ => ⟨S5x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S5x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S1x8192_S1x8192_S1x16384_d1 : Shape.Concatenates [S1x8192, S1x8192] S1x16384 1
  shapeCasts_S1x8192_S8192 : S1x8192.ShapeCasts S8192
  bcast_S8192_S1x8192_1 : S8192.BroadcastsInDim S1x8192 (![1] : Fin 1 → Fin S1x8192.rank)
  concatenates_S1x8192_S1x8192_S1x8192_S1x8192_S1x8192_S5x8192_d0 : Shape.Concatenates [S1x8192, S1x8192, S1x8192, S1x8192, S1x8192] S5x8192 0
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S5x512_S1x512_0_0 : ∀ a, (![0, 0] : Fin 2 → Nat) a + S1x512.size a ≤ S5x512.size a
  inb_S5x512_S1x512_1_0 : ∀ a, (![1, 0] : Fin 2 → Nat) a + S1x512.size a ≤ S5x512.size a
  inb_S5x512_S1x512_2_0 : ∀ a, (![2, 0] : Fin 2 → Nat) a + S1x512.size a ≤ S5x512.size a
  inb_S5x512_S1x512_3_0 : ∀ a, (![3, 0] : Fin 2 → Nat) a + S1x512.size a ≤ S5x512.size a
  inb_S5x512_S1x512_4_0 : ∀ a, (![4, 0] : Fin 2 → Nat) a + S1x512.size a ≤ S5x512.size a
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x16384.size a
  hwx0_0 : ∀ i : grid0.Coords, EltTy.bits .f32 = 32 ∨ (Rect.block (s := S1x16384) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x8192.size a
  hwx0_1 : ∀ i : grid0.Coords, EltTy.bits .f32 = 32 ∨ (Rect.block (s := S16384x8192) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x8192.size a
  hwx0_2 : ∀ i : grid0.Coords, EltTy.bits .f32 = 32 ∨ (Rect.block (s := S16384x8192) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x8192.size a
  hwx0_3 : ∀ i : grid0.Coords, EltTy.bits .f32 = 32 ∨ (Rect.block (s := S16384x8192) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S16384x8192.size a
  hwx0_4 : ∀ i : grid0.Coords, EltTy.bits .f32 = 32 ∨ (Rect.block (s := S16384x8192) S2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5x512.size a ≤ S5x8192.size a
  hwx0_5 : ∀ i : grid0.Coords, EltTy.bits .f32 = 32 ∨ (Rect.block (s := S5x8192) S5x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)

variable [Facts₀]

def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_v0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S5x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x8192 : Shape := ⟨2, ![1, 8192]⟩
abbrev S16384x8192 : Shape := ⟨2, ![16384, 8192]⟩
abbrev S8192 : Shape := ⟨1, ![8192]⟩
abbrev S1x16384 : Shape := ⟨2, ![1, 16384]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S16384x8192, .f32⟩
  | .hbm, ⟨4, _⟩ => ⟨S8192, .f32⟩
  | .hbm, ⟨5, _⟩ => ⟨S16384x8192, .f32⟩
  | .hbm, ⟨6, _⟩ => ⟨S8192, .f32⟩
  | .hbm, ⟨7, _⟩ => ⟨S16384x8192, .f32⟩
  | .hbm, ⟨8, _⟩ => ⟨S8192, .f32⟩
  | .hbm, ⟨9, _⟩ => ⟨S16384x8192, .f32⟩
  | .hbm, ⟨10, _⟩ => ⟨S8192, .f32⟩
  | .hbm, ⟨11, _⟩ => ⟨S1x16384, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S_, .f32⟩
  | .hbm, ⟨22, _⟩ => ⟨S1x8192, .f32⟩
  | .hbm, ⟨23, _⟩ => ⟨S1x8192, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S1x8192, .f32⟩
  | .hbm, ⟨30, _⟩ => ⟨S1x8192, .f32⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S1x8192, .f32⟩
  | .hbm, ⟨40, _⟩ => ⟨S1x8192, .f32⟩
  | .hbm, ⟨41, _⟩ => ⟨S1x8192, .f32⟩
  | .hbm, ⟨42, _⟩ => ⟨S1x8192, .f32⟩
  | .hbm, ⟨43, _⟩ => ⟨S_, .f32⟩
  | .hbm, ⟨44, _⟩ => ⟨S1x8192, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S1x8192, .f32⟩
  | .hbm, ⟨51, _⟩ => ⟨S1x8192, .f32⟩
  | .hbm, ⟨52, _⟩ => ⟨S1x8192, .f32⟩
  | .hbm, ⟨53, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  concatenates_S1x8192_S1x8192_S1x16384_d1 : Shape.Concatenates [S1x8192, S1x8192] S1x16384 1
  bcast_S8192_S1x8192_1 : S8192.BroadcastsInDim S1x8192 (![1] : Fin 1 → Fin S1x8192.rank)
  bcast_S_S1x8192 : S_.BroadcastsInDim S1x8192 (![] : Fin 0 → Fin S1x8192.rank)
  dot_S1x16384_S16384x8192_S1x8192_1_0_0_1_n_n_wf : DotDims.WF S1x16384 S16384x8192 S1x8192 [1] [0] [0] [1] [] []

variable [Facts₀]

def dot_S1x16384_S16384x8192_S1x8192_1_0_0_1_n_n : DotDims S1x16384 S16384x8192 S1x8192 where
  lhsContracting := [1]
  rhsContracting := [0]
  lhsNonContracting := [0]
  rhsNonContracting := [1]
  lhsBatch := []
  rhsBatch := []
  wf := dot_S1x16384_S16384x8192_S1x8192_1_0_0_1_n_n_wf

class Facts : Prop extends Facts₀ where

variable [Facts]
-- ==== Proof.K.Shared.lean ====
/-
  What the three control cases of the cell kernel's frame share.

  The program is eight host operations (two concatenations, a reshape and five broadcasts that lay `[h, x]` in one row and
  the four biases and the cell state in five rows), then one pipelined region on a 16 × 8 grid: 16 column blocks of the
  gates' axis, and for each 8 blocks of the contraction axis, the contraction innermost. The body adds one contraction
  block's products into four accumulators it keeps in scratch, clears them first when the contraction block is 0, and
  when it is 7 turns them into one block of the output row.

  Stated here: the buffers' contents when the region is entered (`V`: the host operations' fold over the launch
  memory), that the program is those operations followed by the region (`hmain`), that no host operation writes an
  argument (`V_main_arg·`), each window's block at a grid point (`iblk`) and that an input's staging buffer holds it
  whether or not it was fetched there, the frame claim's post from a frame run's (`frame_of`), the two branch conditions
  in closed form over the grid (position mod 8 is 0; is 7), where the output window is idle, and names for the staging
  and scratch buffers a case's run is stated over.
-/
import proofs.«170833_j66554813218861_2_alg».proof.Proof.Gen.Kernel.Launch
import proofs.«170833_j66554813218861_2_alg».proof.Proof.Gen.Kernel.Skeleton
import proofs.«170833_j66554813218861_2_alg».proof.Proof.Gen.Kernel.Points
import Idealize.ShloMosaic.Lib.Pipeline.FrameBody
import Idealize.ShloMosaic.Lib.Ring
import Idealize.ShloMosaic.Lib.Tactic

-- membership in a rectangle of 2048 × 512 entries is checked structurally, one step per coordinate
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffer `b` holds when the region is entered: the launch memory after the eight host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region, which is entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight results of the host operations is found by the region as launched: each
    operation writes its own result buffer only (the five-operand concatenation too). -/
theorem V_of_not_written (c : Dev nD) (r : Ref sig .tc) (h0 : r ≠ main_v0) (h1 : r ≠ main_v1) (h2 : r ≠ main_v2) (h3 : r ≠ main_v3)
    (h4 : r ≠ main_v4) (h5 : r ≠ main_v5) (h6 : r ≠ main_v6) (h7 : r ≠ main_v7) : V m c r = m ((c : Thread nD τ).loc r) :=
  StableHlo.after_of_forall_not_mem (b := Proc.devRef .tc r) _ _ (List.forall_iff_forall_mem.mp (by
    simp only [hostOps0, List.Forall, StableHlo.unary_writes, StableHlo.binary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) :=
  V_of_not_written m c main_arg0 (by decide) (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide) (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved since the last fetch), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run ending with every staged array at what the
    write-backs leave and every other unscoped buffer as the region found it ends with the eleven arguments unchanged:
    the four weight matrices are inputs the pipeline only reads, the other seven bypass the region, and no host
    operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 4).trans (((dats 0 c).arrAt_in 4 rfl _).trans ((hA c 4).trans (V_main_arg9 m c))),
      ((h c).2 main_arg10 (Pipeline.mem_restRefs_of main_arg10 (by decide) (by decide))).trans (V_main_arg10 m c)⟩) h

/-! ## The body's two branches, over the grid -/

/-- The first branch's condition (clear the accumulators): the contraction coordinate is 0. -/
abbrev cond0_0 (i : grid0.Coords) : Prop := (Scalar.cmpi .ne (Scalar.extui (Scalar.cmpi .eq (BitVec.ofNat 32 (i 1).val) 0#32)) 0#32) = 1#1
/-- It holds at the positions ≡ 0 (mod 8): the contraction axis is innermost and has 8 blocks. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (finish the output block): the contraction coordinate is 7. -/
abbrev cond0_1 (i : grid0.Coords) : Prop := k0_cond2 i = 1#1
/-- It holds at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

/-- Where the last contraction block is not reached the body stores nothing into the output's buffer, and the
    pipeline does not write it back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last contraction block the output's buffer is live. -/
theorem liveAt0_6 : ∀ t : Fin cfg0.N, cond0_1 (grid0.coords t) → cfg0.idle 6 (grid0.coords t) = false := by decide +kernel
/-- The inputs are never idle. -/
theorem liveAt0_in : ∀ (w : Fin 7), w ≠ 6 → ∀ t : Fin cfg0.N, cfg0.idle w (grid0.coords t) = false := by decide +kernel

/-! ## The buffers a case's run is stated over -/

/-- One staging buffer of the output window, through which its contents are stated (which one does not matter). -/
abbrev VO0_6 : View sig .tc .vmem S1x512 .f32 := (Memref.whole cc0_stg6_0 : Memref sig .tc .vmem S1x512 .f32).view
abbrev ms0_0 (t : Fin cfg0.N) : Memref sig .tc .vmem S1x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev scM0_0 : Memref sig .tc .vmem S1x512 .f32 := Memref.whole cc0_scratch0
abbrev VS0_0 : View sig .tc .vmem S1x512 .f32 := scM0_0.view
abbrev scM0_1 : Memref sig .tc .vmem S1x512 .f32 := Memref.whole cc0_scratch1
abbrev VS0_1 : View sig .tc .vmem S1x512 .f32 := scM0_1.view
abbrev scM0_2 : Memref sig .tc .vmem S1x512 .f32 := Memref.whole cc0_scratch2
abbrev VS0_2 : View sig .tc .vmem S1x512 .f32 := scM0_2.view
abbrev scM0_3 : Memref sig .tc .vmem S1x512 .f32 := Memref.whole cc0_scratch3
abbrev VS0_3 : View sig .tc .vmem S1x512 .f32 := scM0_3.view

/-- The region's invariant with the four accumulators as buffers owned at some contents: what the body is handed at
    the very first point and what it gives back at the end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Cell

end
-- ==== Proof.K.RunA.lean ====
/-
  The cell kernel's body run whole in the case where the contraction block is 0: the four accumulators are cleared, then each takes this block's products.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.K.Shared

-- membership in a rectangle of 2048 × 512 entries is checked structurally, one step per coordinate
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at contents `xi6` that the body must hand back untouched, the four accumulators at anything — the body runs without fault to a state
    holding the inputs as they were, the output's buffer untouched, and each accumulator with its pieces (`LS0 … LS3`) written. -/
noncomputable def kernelRun0_A (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Cell

end
-- ==== Proof.K.RunB.lean ====
/-
  The cell kernel's body run whole in the case where the contraction block is 1 … 6: each accumulator takes this block's products on top of what the point before left.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.K.RunA

-- membership in a rectangle of 2048 × 512 entries is checked structurally, one step per coordinate
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at contents `xi6` that the body must hand back untouched, the four accumulators at what the point before left (`xs0 … xs3`) — the body runs without fault to a state
    holding the inputs as they were, the output's buffer untouched, and each accumulator with its pieces (`LS0 … LS3`) written. -/
noncomputable def kernelRun0_B (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Cell

end
-- ==== Proof.K.RunC.lean ====
/-
  The cell kernel's body run whole in the case where the contraction block is 7: each accumulator takes the last block's products, and the output block is made from the four sums, the biases and the cell state.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.K.RunB

-- membership in a rectangle of 2048 × 512 entries is checked structurally, one step per coordinate
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at anything, the four accumulators at what the point before left (`xs0 … xs3`) — the body runs without fault to a state
    holding the inputs as they were, the output's buffer with the pieces `L6` written, and each accumulator with its pieces (`LS0 … LS3`) written. -/
noncomputable def kernelRun0_C (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.Kernel.Cell

end
-- ==== Proof.K.Frame.lean ====
/-
  The frame of the cell kernel's program: every weakly fair execution terminates without fault and leaves the eleven
  argument arrays as they were — together with what the run leaves in the output array, which the value proof reads.

  The body has three cases by the contraction coordinate (position mod 8): 0 clears the four accumulators first; 1 … 6
  only add; 7 adds and then makes an output block. What the accumulators hold after each grid point is therefore a
  recursion on the position: at a position ≡ 0 it is that point's own run; elsewhere it is the run over what the point
  before left. The region's invariant carries the four accumulators at exactly those contents from one point to the
  next; before the first point, and again after the last, they hold anything. The output window's buffer is idle
  (untouched, not written back) except at positions ≡ 7, where the body's single store covers it.
-/
import proofs.«170833_j66554813218861_2_alg».proof.Proof.K.RunC

-- membership in a rectangle of 2048 × 512 entries is checked structurally, one step per coordinate
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- Accumulator 0's pieces in case A cover it: each store writes the whole row of 512 entries. -/
theorem scover0_A_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1x512.size (by sl_kernel_rfl) y

/-- What case A leaves in accumulator 0: its pieces read back. -/
def sout0_A_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Accumulator 1's pieces in case A cover it: each store writes the whole row of 512 entries. -/
theorem scover0_A_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1x512.size (by sl_kernel_rfl) y

/-- What case A leaves in accumulator 1: its pieces read back. -/
def sout0_A_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Accumulator 2's pieces in case A cover it: each store writes the whole row of 512 entries. -/
theorem scover0_A_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x512.size (by sl_kernel_rfl) y

/-- What case A leaves in accumulator 2: its pieces read back. -/
def sout0_A_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Accumulator 3's pieces in case A cover it: each store writes the whole row of 512 entries. -/
theorem scover0_A_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x512.size (by sl_kernel_rfl) y

/-- What case A leaves in accumulator 3: its pieces read back. -/
def sout0_A_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Accumulator 0's pieces in case B cover it: each store writes the whole row of 512 entries. -/
theorem scover0_B_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1x512.size (by sl_kernel_rfl) y

/-- What case B leaves in accumulator 0: its pieces read back. -/
def sout0_B_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Accumulator 1's pieces in case B cover it: each store writes the whole row of 512 entries. -/
theorem scover0_B_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1x512.size (by sl_kernel_rfl) y

/-- What case B leaves in accumulator 1: its pieces read back. -/
def sout0_B_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Accumulator 2's pieces in case B cover it: each store writes the whole row of 512 entries. -/
theorem scover0_B_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1x512.size (by sl_kernel_rfl) y

/-- What case B leaves in accumulator 2: its pieces read back. -/
def sout0_B_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Accumulator 3's pieces in case B cover it: each store writes the whole row of 512 entries. -/
theorem scover0_B_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1x512.size (by sl_kernel_rfl) y

/-- What case B leaves in accumulator 3: its pieces read back. -/
def sout0_B_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- Accumulator 0's pieces in case C cover it: each store writes the whole row of 512 entries. -/
theorem scover0_C_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1x512.size (by sl_kernel_rfl) y

/-- What case C leaves in accumulator 0: its pieces read back. -/
def sout0_C_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Accumulator 1's pieces in case C cover it: each store writes the whole row of 512 entries. -/
theorem scover0_C_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1x512.size (by sl_kernel_rfl) y

/-- What case C leaves in accumulator 1: its pieces read back. -/
def sout0_C_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Accumulator 2's pieces in case C cover it: each store writes the whole row of 512 entries. -/
theorem scover0_C_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1x512.size (by sl_kernel_rfl) y

/-- What case C leaves in accumulator 2: its pieces read back. -/
def sout0_C_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Accumulator 3's pieces in case C cover it: each store writes the whole row of 512 entries. -/
theorem scover0_C_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1x512.size (by sl_kernel_rfl) y

/-- What case C leaves in accumulator 3: its pieces read back. -/
def sout0_C_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- In case C the one store into the output's buffer covers its block of 512 entries. -/
theorem cover0_C_6 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1 S1x512.size (by sl_kernel_rfl) y

/-- What case C leaves in the output's staging buffer. -/
def out0_C_6 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Where the body stores nothing into the output's buffer (cases A and B) the proof data names no contents for it: a
    placeholder nothing consults, since there the buffer is neither written back nor read at the next point. -/
def idleOut : Vec F S1x512 .f32 := VO0_6.read (Elt F) (VO0_6.writes (Elt F) VO0_6.junk [])

/-! ## What the output's buffer and the accumulators hold after each grid point -/

/-- After a point of case A (contraction block 0): the output's placeholder and that point's four accumulators. -/
def atA (c : Dev nD) (t : Fin cfg0.N) (h0 : t.val % 8 = 0) (h1 : ¬t.val % 8 = 7) : Vec F S1x512 .f32 × Vec F S1x512 .f32 × Vec F S1x512 .f32 × Vec F S1x512 .f32 × Vec F S1x512 .f32 :=
  (idleOut,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t))
/-- After a point of case B (contraction block 1 … 6), over what the point before left (`prev`). -/
def atB (c : Dev nD) (t : Fin cfg0.N) (h0 : ¬t.val % 8 = 0) (h1 : ¬t.val % 8 = 7) (prev : Vec F S1x512 .f32 × Vec F S1x512 .f32 × Vec F S1x512 .f32 × Vec F S1x512 .f32 × Vec F S1x512 .f32) : Vec F S1x512 .f32 × Vec F S1x512 .f32 × Vec F S1x512 .f32 × Vec F S1x512 .f32 × Vec F S1x512 .f32 :=
  (idleOut,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2)
/-- After a point of case C (contraction block 7), over what the point before left: the output block too. -/
def atC (c : Dev nD) (t : Fin cfg0.N) (h0 : ¬t.val % 8 = 0) (h1 : t.val % 8 = 7) (prev : Vec F S1x512 .f32 × Vec F S1x512 .f32 × Vec F S1x512 .f32 × Vec F S1x512 .f32 × Vec F S1x512 .f32) : Vec F S1x512 .f32 × Vec F S1x512 .f32 × Vec F S1x512 .f32 × Vec F S1x512 .f32 × Vec F S1x512 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2)

/-- THE ACCUMULATION: what the output's staging buffer and the four accumulators hold after the body at position `n`
    (the output first). Position ≡ 0 (mod 8) starts afresh; any other continues from position `n - 1`. -/
def outsAt0 (c : Dev nD) : (n : ℕ) → n < cfg0.N → Vec F S1x512 .f32 × Vec F S1x512 .f32 × Vec F S1x512 .f32 × Vec F S1x512 .f32 × Vec F S1x512 .f32
  | 0, hn => atA m c ⟨0, hn⟩ (Nat.zero_mod _) (by show ¬(0 : ℕ) % 8 = 7; decide)
  | n + 1, hn =>
    if h0 : (n + 1) % 8 = 0 then
      if h1 : (n + 1) % 8 = 7 then False.elim (by omega)
      else atA m c ⟨n + 1, hn⟩ h0 h1
    else
      if h1 : (n + 1) % 8 = 7 then atC m c ⟨n + 1, hn⟩ h0 h1 (outsAt0 c n (Nat.lt_of_succ_lt hn))
      else atB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = atA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = atB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = atC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very start the accumulators hold anything; afterwards each holds what position
    `n - 1` left in it. The generator register is held at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- On core `c`: the arrays as the region finds them; after the body at point `t` each input's buffer at its block
    and the output's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer is handed back holding its block. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_in 0 (by decide) t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_in 1 (by decide) t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_in 2 (by decide) t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_in 3 (by decide) t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_in 4 (by decide) t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_in 5 (by decide) t], after0_5]

/-! ## The body obligation, at a generic point -/

/-- What the body is called with at point `t`: the invariant, the core's debts, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 8000000 in
/-- The body at any point. The inputs' buffers hold their blocks; position mod 8 says which case the point is in;
    that case's run applies. The invariant hands the body the accumulators at what the point before left (at
    anything at the first point) and takes them back at this point's contents, which the covering pieces determine. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 128 := lt_of_lt_of_eq t.isLt (show cfg0.N = 128 from N_0)
  by_cases h0 : t.val % 8 = 0
  · have h1 : ¬t.val % 8 = 7 := by omega
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold atA sout0_A_0 sout0_A_1 sout0_A_2 sout0_A_3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold atC out0_C_6 sout0_C_0 sout0_C_1 sout0_C_2 sout0_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold atB sout0_B_0 sout0_B_1 sout0_B_2 sout0_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

-- the launch theorem's implicit arguments are found by unifying its conclusion with this one, which takes unfolding
-- plain definitions in a metavariable's type
set_option backward.isDefEq.respectTransparency.types false in
/-- From any memory with zero counters every weakly fair execution of the program terminates, and every final state has
    each staged array at what the write-backs leave (for the output: `outsAt0`'s blocks) and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end without fault and the eleven arguments end as
    they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.KI.Shared.lean ====
/-
  What the three control cases of the cell kernel's frame share.

  The program is eight host operations (two concatenations, a reshape and five broadcasts that lay `[h, x]` in one row and
  the four biases and the cell state in five rows), then one pipelined region on a 16 × 8 grid: 16 column blocks of the
  gates' axis, and for each 8 blocks of the contraction axis, the contraction innermost. The body adds one contraction
  block's products into four accumulators it keeps in scratch, clears them first when the contraction block is 0, and
  when it is 7 turns them into one block of the output row.

  Stated here: the buffers' contents when the region is entered (`V`: the host operations' fold over the launch
  memory), that the program is those operations followed by the region (`hmain`), that no host operation writes an
  argument (`V_main_arg·`), each window's block at a grid point (`iblk`) and that an input's staging buffer holds it
  whether or not it was fetched there, the frame claim's post from a frame run's (`frame_of`), the two branch conditions
  in closed form over the grid (position mod 8 is 0; is 7), where the output window is idle, and names for the staging
  and scratch buffers a case's run is stated over.
-/
import proofs.«170833_j66554813218861_2_alg».proof.Proof.Gen.KernelIdeal.Launch
import proofs.«170833_j66554813218861_2_alg».proof.Proof.Gen.KernelIdeal.Skeleton
import proofs.«170833_j66554813218861_2_alg».proof.Proof.Gen.KernelIdeal.Points
import Idealize.ShloMosaic.Lib.Pipeline.FrameBody
import Idealize.ShloMosaic.Lib.Ring
import Idealize.ShloMosaic.Lib.Tactic

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffer `b` holds when the region is entered: the launch memory after the eight host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region, which is entered at contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the eight results of the host operations is found by the region as launched: each
    operation writes its own result buffer only (the five-operand concatenation too). -/
theorem V_of_not_written (c : Dev nD) (r : Ref sig .tc) (h0 : r ≠ main_v0) (h1 : r ≠ main_v1) (h2 : r ≠ main_v2) (h3 : r ≠ main_v3)
    (h4 : r ≠ main_v4) (h5 : r ≠ main_v5) (h6 : r ≠ main_v6) (h7 : r ≠ main_v7) : V m c r = m ((c : Thread nD τ).loc r) :=
  StableHlo.after_of_forall_not_mem (b := Proc.devRef .tc r) _ _ (List.forall_iff_forall_mem.mp (by
    simp only [hostOps0, List.Forall, StableHlo.unary_writes, StableHlo.binary_writes, StableHlo.reshape_writes, StableHlo.nary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7⟩))

theorem V_main_arg0 (c : Dev nD) : V m c main_arg0 = m ((c : Thread nD τ).loc main_arg0) :=
  V_of_not_written m c main_arg0 (by decide) (by decide) (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide) (by decide) (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved since the last fetch), for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run ending with every staged array at what the
    write-backs leave and every other unscoped buffer as the region found it ends with the eleven arguments unchanged:
    the four weight matrices are inputs the pipeline only reads, the other seven bypass the region, and no host
    operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).1 3).trans (((dats 0 c).arrAt_in 3 rfl _).trans ((hA c 3).trans (V_main_arg7 m c))),
      ((h c).2 main_arg8 (Pipeline.mem_restRefs_of main_arg8 (by decide) (by decide))).trans (V_main_arg8 m c),
      ((h c).1 4).trans (((dats 0 c).arrAt_in 4 rfl _).trans ((hA c 4).trans (V_main_arg9 m c))),
      ((h c).2 main_arg10 (Pipeline.mem_restRefs_of main_arg10 (by decide) (by decide))).trans (V_main_arg10 m c)⟩) h

/-! ## The body's two branches, over the grid -/

/-- The first branch's condition (clear the accumulators): the contraction coordinate is 0. -/
abbrev cond0_0 (i : grid0.Coords) : Prop := (Scalar.cmpi .ne (Scalar.extui (Scalar.cmpi .eq (BitVec.ofNat 32 (i 1).val) 0#32)) 0#32) = 1#1
/-- It holds at the positions ≡ 0 (mod 8): the contraction axis is innermost and has 8 blocks. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (finish the output block): the contraction coordinate is 7. -/
abbrev cond0_1 (i : grid0.Coords) : Prop := k0_cond2 i = 1#1
/-- It holds at the positions ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output window is idle -/

/-- Where the last contraction block is not reached the body stores nothing into the output's buffer, and the
    pipeline does not write it back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last contraction block the output's buffer is live. -/
theorem liveAt0_6 : ∀ t : Fin cfg0.N, cond0_1 (grid0.coords t) → cfg0.idle 6 (grid0.coords t) = false := by decide +kernel
/-- The inputs are never idle. -/
theorem liveAt0_in : ∀ (w : Fin 7), w ≠ 6 → ∀ t : Fin cfg0.N, cfg0.idle w (grid0.coords t) = false := by decide +kernel

/-! ## The buffers a case's run is stated over -/

/-- One staging buffer of the output window, through which its contents are stated (which one does not matter). -/
abbrev VO0_6 : View sig .tc .vmem S1x512 .f32 := (Memref.whole cc0_stg6_0 : Memref sig .tc .vmem S1x512 .f32).view
abbrev ms0_0 (t : Fin cfg0.N) : Memref sig .tc .vmem S1x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev scM0_0 : Memref sig .tc .vmem S1x512 .f32 := Memref.whole cc0_scratch0
abbrev VS0_0 : View sig .tc .vmem S1x512 .f32 := scM0_0.view
abbrev scM0_1 : Memref sig .tc .vmem S1x512 .f32 := Memref.whole cc0_scratch1
abbrev VS0_1 : View sig .tc .vmem S1x512 .f32 := scM0_1.view
abbrev scM0_2 : Memref sig .tc .vmem S1x512 .f32 := Memref.whole cc0_scratch2
abbrev VS0_2 : View sig .tc .vmem S1x512 .f32 := scM0_2.view
abbrev scM0_3 : Memref sig .tc .vmem S1x512 .f32 := Memref.whole cc0_scratch3
abbrev VS0_3 : View sig .tc .vmem S1x512 .f32 := scM0_3.view

/-- The region's invariant with the four accumulators as buffers owned at some contents: what the body is handed at
    the very first point and what it gives back at the end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Cell

end
-- ==== Proof.KI.RunA.lean ====
/-
  The cell kernel's body run whole in the case where the contraction block is 0: the four accumulators are cleared, then each takes this block's products.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.KI.Shared

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at contents `xi6` that the body must hand back untouched, the four accumulators at anything — the body runs without fault to a state
    holding the inputs as they were, the output's buffer untouched, and each accumulator with its pieces (`LS0 … LS3`) written. -/
noncomputable def kernelRun0_A (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Cell

end
-- ==== Proof.KI.RunB.lean ====
/-
  The cell kernel's body run whole in the case where the contraction block is 1 … 6: each accumulator takes this block's products on top of what the point before left.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.KI.RunA

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at contents `xi6` that the body must hand back untouched, the four accumulators at what the point before left (`xs0 … xs3`) — the body runs without fault to a state
    holding the inputs as they were, the output's buffer untouched, and each accumulator with its pieces (`LS0 … LS3`) written. -/
noncomputable def kernelRun0_B (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (xi6 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨[], ?_, ?_, ?_, ?_, fun xi6 E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Cell

end
-- ==== Proof.KI.RunC.lean ====
/-
  The cell kernel's body run whole in the case where the contraction block is 7: each accumulator takes the last block's products, and the output block is made from the four sums, the biases and the cell state.
  The run is symbolic: the staging buffers hold arbitrary contents `x·`, and what each store leaves is recorded as a
  list of pieces (a rectangle and the value stored through it), last store first. Those lists are found by running the
  body, not written down here; later modules read them back.
-/
import proofs.«170833_j66554813218861_2_alg».proof.Proof.KI.RunB

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 4000000 in
/-- In this case, on whole staging buffers — the six inputs at contents `x0 … x5`, the output's at anything, the four accumulators at what the point before left (`xs0 … xs3`) — the body runs without fault to a state
    holding the inputs as they were, the output's buffer with the pieces `L6` written, and each accumulator with its pieces (`LS0 … LS3`) written. -/
noncomputable def kernelRun0_C (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    Σ' (L6 : List (View.Piece (Elt F) S1x512 .f32)) (LS0 : List (View.Piece (Elt F) S1x512 .f32)) (LS1 : List (View.Piece (Elt F) S1x512 .f32)) (LS2 : List (View.Piece (Elt F) S1x512 .f32)), { LS3 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__lstm_kernel_eq_skeleton]; unfold cc0__lstm_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Cell

end
-- ==== Proof.KI.Frame.lean ====
/-
  The frame of the cell kernel's program: every weakly fair execution terminates without fault and leaves the eleven
  argument arrays as they were — together with what the run leaves in the output array, which the value proof reads.

  The body has three cases by the contraction coordinate (position mod 8): 0 clears the four accumulators first; 1 … 6
  only add; 7 adds and then makes an output block. What the accumulators hold after each grid point is therefore a
  recursion on the position: at a position ≡ 0 it is that point's own run; elsewhere it is the run over what the point
  before left. The region's invariant carries the four accumulators at exactly those contents from one point to the
  next; before the first point, and again after the last, they hold anything. The output window's buffer is idle
  (untouched, not written back) except at positions ≡ 7, where the body's single store covers it.
-/
import proofs.«170833_j66554813218861_2_alg».proof.Proof.KI.RunC

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, read back -/

/-- Accumulator 0's pieces in case A cover it: each store writes the whole row of 512 entries. -/
theorem scover0_A_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1 S1x512.size (by sl_kernel_rfl) y

/-- What case A leaves in accumulator 0: its pieces read back. -/
def sout0_A_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Accumulator 1's pieces in case A cover it: each store writes the whole row of 512 entries. -/
theorem scover0_A_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1 S1x512.size (by sl_kernel_rfl) y

/-- What case A leaves in accumulator 1: its pieces read back. -/
def sout0_A_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Accumulator 2's pieces in case A cover it: each store writes the whole row of 512 entries. -/
theorem scover0_A_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x512.size (by sl_kernel_rfl) y

/-- What case A leaves in accumulator 2: its pieces read back. -/
def sout0_A_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Accumulator 3's pieces in case A cover it: each store writes the whole row of 512 entries. -/
theorem scover0_A_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x512.size (by sl_kernel_rfl) y

/-- What case A leaves in accumulator 3: its pieces read back. -/
def sout0_A_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) : Vec F S1x512 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Accumulator 0's pieces in case B cover it: each store writes the whole row of 512 entries. -/
theorem scover0_B_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1x512.size (by sl_kernel_rfl) y

/-- What case B leaves in accumulator 0: its pieces read back. -/
def sout0_B_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Accumulator 1's pieces in case B cover it: each store writes the whole row of 512 entries. -/
theorem scover0_B_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1x512.size (by sl_kernel_rfl) y

/-- What case B leaves in accumulator 1: its pieces read back. -/
def sout0_B_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Accumulator 2's pieces in case B cover it: each store writes the whole row of 512 entries. -/
theorem scover0_B_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1x512.size (by sl_kernel_rfl) y

/-- What case B leaves in accumulator 2: its pieces read back. -/
def sout0_B_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Accumulator 3's pieces in case B cover it: each store writes the whole row of 512 entries. -/
theorem scover0_B_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1x512.size (by sl_kernel_rfl) y

/-- What case B leaves in accumulator 3: its pieces read back. -/
def sout0_B_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- Accumulator 0's pieces in case C cover it: each store writes the whole row of 512 entries. -/
theorem scover0_C_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1 S1x512.size (by sl_kernel_rfl) y

/-- What case C leaves in accumulator 0: its pieces read back. -/
def sout0_C_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1)

/-- Accumulator 1's pieces in case C cover it: each store writes the whole row of 512 entries. -/
theorem scover0_C_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1 S1x512.size (by sl_kernel_rfl) y

/-- What case C leaves in accumulator 1: its pieces read back. -/
def sout0_C_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1)

/-- Accumulator 2's pieces in case C cover it: each store writes the whole row of 512 entries. -/
theorem scover0_C_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1 S1x512.size (by sl_kernel_rfl) y

/-- What case C leaves in accumulator 2: its pieces read back. -/
def sout0_C_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1)

/-- Accumulator 3's pieces in case C cover it: each store writes the whole row of 512 entries. -/
theorem scover0_C_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1 S1x512.size (by sl_kernel_rfl) y

/-- What case C leaves in accumulator 3: its pieces read back. -/
def sout0_C_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1)

/-- In case C the one store into the output's buffer covers its block of 512 entries. -/
theorem cover0_C_6 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) (y : S1x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1 S1x512.size (by sl_kernel_rfl) y

/-- What case C leaves in the output's staging buffer. -/
def out0_C_6 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) : Vec F S1x512 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)

/-- Where the body stores nothing into the output's buffer (cases A and B) the proof data names no contents for it: a
    placeholder nothing consults, since there the buffer is neither written back nor read at the next point. -/
def idleOut : Vec F S1x512 .f32 := VO0_6.read (Elt F) (VO0_6.writes (Elt F) VO0_6.junk [])

/-! ## What the output's buffer and the accumulators hold after each grid point -/

/-- After a point of case A (contraction block 0): the output's placeholder and that point's four accumulators. -/
def atA (c : Dev nD) (t : Fin cfg0.N) (h0 : t.val % 8 = 0) (h1 : ¬t.val % 8 = 7) : Vec F S1x512 .f32 × Vec F S1x512 .f32 × Vec F S1x512 .f32 × Vec F S1x512 .f32 × Vec F S1x512 .f32 :=
  (idleOut,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t))
/-- After a point of case B (contraction block 1 … 6), over what the point before left (`prev`). -/
def atB (c : Dev nD) (t : Fin cfg0.N) (h0 : ¬t.val % 8 = 0) (h1 : ¬t.val % 8 = 7) (prev : Vec F S1x512 .f32 × Vec F S1x512 .f32 × Vec F S1x512 .f32 × Vec F S1x512 .f32 × Vec F S1x512 .f32) : Vec F S1x512 .f32 × Vec F S1x512 .f32 × Vec F S1x512 .f32 × Vec F S1x512 .f32 × Vec F S1x512 .f32 :=
  (idleOut,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2)
/-- After a point of case C (contraction block 7), over what the point before left: the output block too. -/
def atC (c : Dev nD) (t : Fin cfg0.N) (h0 : ¬t.val % 8 = 0) (h1 : t.val % 8 = 7) (prev : Vec F S1x512 .f32 × Vec F S1x512 .f32 × Vec F S1x512 .f32 × Vec F S1x512 .f32 × Vec F S1x512 .f32) : Vec F S1x512 .f32 × Vec F S1x512 .f32 × Vec F S1x512 .f32 × Vec F S1x512 .f32 × Vec F S1x512 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2)

/-- THE ACCUMULATION: what the output's staging buffer and the four accumulators hold after the body at position `n`
    (the output first). Position ≡ 0 (mod 8) starts afresh; any other continues from position `n - 1`. -/
def outsAt0 (c : Dev nD) : (n : ℕ) → n < cfg0.N → Vec F S1x512 .f32 × Vec F S1x512 .f32 × Vec F S1x512 .f32 × Vec F S1x512 .f32 × Vec F S1x512 .f32
  | 0, hn => atA m c ⟨0, hn⟩ (Nat.zero_mod _) (by show ¬(0 : ℕ) % 8 = 7; decide)
  | n + 1, hn =>
    if h0 : (n + 1) % 8 = 0 then
      if h1 : (n + 1) % 8 = 7 then False.elim (by omega)
      else atA m c ⟨n + 1, hn⟩ h0 h1
    else
      if h1 : (n + 1) % 8 = 7 then atC m c ⟨n + 1, hn⟩ h0 h1 (outsAt0 c n (Nat.lt_of_succ_lt hn))
      else atB m c ⟨n + 1, hn⟩ h0 h1 (outsAt0 c n (Nat.lt_of_succ_lt hn))

theorem outsAt0_A (c : Dev nD) (t : Fin cfg0.N) (h0 : t.val % 8 = 0) (h1 : ¬t.val % 8 = 7) :
    outsAt0 m c t.val t.isLt = atA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = atB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = atC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the very start the accumulators hold anything; afterwards each holds what position
    `n - 1` left in it. The generator register is held at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- On core `c`: the arrays as the region finds them; after the body at point `t` each input's buffer at its block
    and the output's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- An input's buffer is handed back holding its block. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_in 0 (by decide) t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_in 1 (by decide) t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_in 2 (by decide) t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_in 3 (by decide) t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_in 4 (by decide) t], after0_4]
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_in 5 (by decide) t], after0_5]

/-! ## The body obligation, at a generic point -/

/-- What the body is called with at point `t`: the invariant, the core's debts, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- And what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 8000000 in
/-- The body at any point. The inputs' buffers hold their blocks; position mod 8 says which case the point is in;
    that case's run applies. The invariant hands the body the accumulators at what the point before left (at
    anything at the first point) and takes them back at this point's contents, which the covering pieces determine. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  have hN : t.val < 128 := lt_of_lt_of_eq t.isLt (show cfg0.N = 128 from N_0)
  by_cases h0 : t.val % 8 = 0
  · have h1 : ¬t.val % 8 = 7 := by omega
    rw [Dat.leavesExact_idle (dats m 0 c) 6 t (idleAt0_6 t (fun h => h1 ((hcond0_1 t).mp h))) (noFlush0_6 t (fun h => h1 ((hcond0_1 t).mp h)))]
    rw [outsAt0_A m c t h0 h1]
    unfold atA sout0_A_0 sout0_A_1 sout0_A_2 sout0_A_3; (try dsimp only)
    by_cases hz : t.val = 0
    · rw [PhiS_castSucc m c t, PhiS_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 8 = 7
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold atC out0_C_6 sout0_C_0 sout0_C_1 sout0_C_2 sout0_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%e6, H6⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_C_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _ _ _ _ _ _ _ _ _ _)
    · rw [Dat.leavesExact_idle (dats m 0 c) 6 t (idleAt0_6 t (fun h => h1 ((hcond0_1 t).mp h))) (noFlush0_6 t (fun h => h1 ((hcond0_1 t).mp h)))]
      rw [outsAt0_B m c t h0 h1]
      unfold atB sout0_B_0 sout0_B_1 sout0_B_2 sout0_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

-- the launch theorem's implicit arguments are found by unifying its conclusion with this one, which takes unfolding
-- plain definitions in a metavariable's type
set_option backward.isDefEq.respectTransparency.types false in
/-- From any memory with zero counters every weakly fair execution of the program terminates, and every final state has
    each staged array at what the write-backs leave (for the output: `outsAt0`'s blocks) and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any float instance: the program runs to the end without fault and the eleven arguments end as
    they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.KI.Pieces.lean ====
/-
  What each control case of the cell kernel's body leaves, read back as the body's arithmetic.

  A run of the body records, per buffer it stores into, the list of pieces it stored (a rectangle and the value stored
  through it, last store first). Every store of this body goes through the whole 1 × 512 block, so the contents a list
  leaves are the value of its LAST store; and a load of the whole block after one store reads that store's value. Read
  so, with the staging buffers at contents `x0 … x5` and the accumulators at `xs0 … xs3`:
    contraction block 1 … 6 (case B) and 7 (case C): accumulator `j` ends at its old value plus this block's products,
        `k0_pay8 x0 xs0 x1`, `k0_pay9 x0 xs1 x2`, `k0_pay10 x0 xs2 x3`, `k0_pay1 (k0_pay7 x0) xs3 x4`;
    contraction block 0 (case A): the same on top of the zero block the body first stores (`k0_pay3 … k0_pay6`);
    contraction block 7 (case C): the output block is `k0_pay2` of the five rows of the bias-and-state block `x5` and
        the four accumulators' final values.
  Last, row `r` of the 5 × 512 block read through the 1 × 512 rectangle at offset `(r, 0)` is entry `(r, q)` at `(0, q)`.
-/
import proofs.«170833_j66554813218861_2_alg».proof.Proof.KI.RunC
import Idealize.ShloMosaic.Lib.Pipeline.Value
import Idealize.ShloMosaic.Lib.ValueIdx

-- membership in a rectangle of 2048 × 512 entries is checked structurally, one step per coordinate
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets, as the body's rectangles spell them. -/
theorem off_zero : (![0, 0] : Fin 2 → Nat) = fun _ => 0 := funext fun a => by fin_cases a <;> rfl

/-! ## Contraction block 1 … 6: one store per accumulator, of its old value plus this block's products -/

theorem pieces_B_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1) = k0_pay8 x0 xs0 x1 := by
  have cov : ∀ y, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
    fun y => View.cover_of_tiledL _ S1x512.size (by sl_kernel_rfl) y
  rw [View.read_writes_eq_canon _ _ _ cov]
  unfold kernelRun0_B; dsimp only
  rw [View.canon_unit_zero off_zero]
  simp only [View.readAt_eq_ld, harg2.read_unread, harg3.read_unread, harg9.read_unread,
    View.ld_unit_zero (S := S1x2048) off_zero, View.ld_unit_zero (S := S2048x512) off_zero, View.ld_unit_zero (S := S1x512) off_zero]

theorem pieces_B_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1) = k0_pay9 x0 xs1 x2 := by
  have cov : ∀ y, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
    fun y => View.cover_of_tiledL _ S1x512.size (by sl_kernel_rfl) y
  rw [View.read_writes_eq_canon _ _ _ cov]
  unfold kernelRun0_B; dsimp only
  rw [View.canon_unit_zero off_zero]
  simp only [View.readAt_eq_ld, harg2.read_unread, harg4.read_unread, harg10.read_unread,
    View.ld_unit_zero (S := S1x2048) off_zero, View.ld_unit_zero (S := S2048x512) off_zero, View.ld_unit_zero (S := S1x512) off_zero]

theorem pieces_B_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1) = k0_pay10 x0 xs2 x3 := by
  have cov : ∀ y, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
    fun y => View.cover_of_tiledL _ S1x512.size (by sl_kernel_rfl) y
  rw [View.read_writes_eq_canon _ _ _ cov]
  unfold kernelRun0_B; dsimp only
  rw [View.canon_unit_zero off_zero]
  simp only [View.readAt_eq_ld, harg2.read_unread, harg5.read_unread, harg11.read_unread,
    View.ld_unit_zero (S := S1x2048) off_zero, View.ld_unit_zero (S := S2048x512) off_zero, View.ld_unit_zero (S := S1x512) off_zero]

theorem pieces_B_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : ¬cond0_1 i)
    (x0 : Vec F S1x2048 .f32) (x1 x2 x3 x4 : Vec F S2048x512 .f32) (x5 : Vec F S5x512 .f32) (xs0 xs1 xs2 xs3 : Vec F S1x512 .f32) :
    VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1) = k0_pay1 (k0_pay7 x0) xs3 x4 := by
  have cov : ∀ y, ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
    fun y => View.cover_of_tiledL _ S1x512.size (by sl_kernel_rfl) y
  rw [View.read_writes_eq_canon _ _ _ cov]
  unfold kernelRun0_B; dsimp only
  rw [View.canon_unit_zero off_zero]
  simp only [View.readAt_eq_ld, harg2.read_unread, harg6.read_unread, harg12.read_unread,
    View.ld_unit_zero (S := S1x2048) off_zero, View.ld_unit_zero (S := S2048x512) off_zero, View.ld_unit_zero (S := S1x512) off_zero]

/-! ## Contraction block 7: the accumulators as in the case before -/

theorem pieces_C_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1) = k0_pay8 x0 xs0 x1 := by
  have cov : ∀ y, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.1, y ∈ pc.1.set :=
    fun y => View.cover_of_tiledL _ S1x512.size (by sl_kernel_rfl) y
  rw [View.read_writes_eq_canon _ _ _ cov]
  unfold kernelRun0_C; dsimp only
  sl_unfold_words
  rw [View.canon_unit_zero off_zero]
  simp only [View.readAt_eq_ld, harg2.read_unread, harg3.read_unread, harg9.read_unread,
    View.ld_unit_zero (S := S1x2048) off_zero, View.ld_unit_zero (S := S2048x512) off_zero, View.ld_unit_zero (S := S1x512) off_zero]

theorem pieces_C_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1) = k0_pay9 x0 xs1 x2 := by
  have cov : ∀ y, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.1, y ∈ pc.1.set :=
    fun y => View.cover_of_tiledL _ S1x512.size (by sl_kernel_rfl) y
  rw [View.read_writes_eq_canon _ _ _ cov]
  unfold kernelRun0_C; dsimp only
  sl_unfold_words
  rw [View.canon_unit_zero off_zero]
  simp only [View.readAt_eq_ld, harg2.read_unread, harg4.read_unread, harg10.read_unread,
    View.ld_unit_zero (S := S1x2048) off_zero, View.ld_unit_zero (S := S2048x512) off_zero, View.ld_unit_zero (S := S1x512) off_zero]

theorem pieces_C_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1) = k0_pay10 x0 xs2 x3 := by
  have cov : ∀ y, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.1, y ∈ pc.1.set :=
    fun y => View.cover_of_tiledL _ S1x512.size (by sl_kernel_rfl) y
  rw [View.read_writes_eq_canon _ _ _ cov]
  unfold kernelRun0_C; dsimp only
  sl_unfold_words
  rw [View.canon_unit_zero off_zero]
  simp only [View.readAt_eq_ld, harg2.read_unread, harg5.read_unread, harg11.read_unread,
    View.ld_unit_zero (S := S1x2048) off_zero, View.ld_unit_zero (S := S2048x512) off_zero, View.ld_unit_zero (S := S1x512) off_zero]

theorem pieces_C_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1) = k0_pay1 (k0_pay7 x0) xs3 x4 := by
  have cov : ∀ y, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).2.2.2.2.1, y ∈ pc.1.set :=
    fun y => View.cover_of_tiledL _ S1x512.size (by sl_kernel_rfl) y
  rw [View.read_writes_eq_canon _ _ _ cov]
  unfold kernelRun0_C; dsimp only
  sl_unfold_words
  rw [View.canon_unit_zero off_zero]
  simp only [View.readAt_eq_ld, harg2.read_unread, harg6.read_unread, harg12.read_unread,
    View.ld_unit_zero (S := S1x2048) off_zero, View.ld_unit_zero (S := S2048x512) off_zero, View.ld_unit_zero (S := S1x512) off_zero]

/-! ## Contraction block 0: each accumulator is zeroed, read back, added to and stored — the last store stands, and the
    read-back reads the zero block -/

theorem pieces_A_0 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1) = k0_pay8 x0 (k0_pay3 (F := F)) x1 := by
  have cov : ∀ y, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.1, y ∈ pc.1.set :=
    fun y => View.cover_of_tiledL _ S1x512.size (by sl_kernel_rfl) y
  rw [View.read_writes_eq_canon _ _ _ cov]
  unfold kernelRun0_A; dsimp only
  sl_unfold_words
  rw [View.canon_cons_unit_zero off_zero, View.readCov_unit_zero _ off_zero]
  simp only [View.readAt_eq_ld, harg2.read_unread, harg3.read_unread,
    View.ld_unit_zero (S := S1x2048) off_zero, View.ld_unit_zero (S := S2048x512) off_zero, View.ld_unit_zero (S := S1x512) off_zero]

theorem pieces_A_1 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1) = k0_pay9 x0 (k0_pay4 (F := F)) x2 := by
  have cov : ∀ y, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
    fun y => View.cover_of_tiledL _ S1x512.size (by sl_kernel_rfl) y
  rw [View.read_writes_eq_canon _ _ _ cov]
  unfold kernelRun0_A; dsimp only
  sl_unfold_words
  rw [View.canon_cons_unit_zero off_zero, View.readCov_unit_zero _ off_zero]
  simp only [View.readAt_eq_ld, harg2.read_unread, harg4.read_unread,
    View.ld_unit_zero (S := S1x2048) off_zero, View.ld_unit_zero (S := S2048x512) off_zero, View.ld_unit_zero (S := S1x512) off_zero]

theorem pieces_A_2 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1) = k0_pay10 x0 (k0_pay5 (F := F)) x3 := by
  have cov : ∀ y, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
    fun y => View.cover_of_tiledL _ S1x512.size (by sl_kernel_rfl) y
  rw [View.read_writes_eq_canon _ _ _ cov]
  unfold kernelRun0_A; dsimp only
  sl_unfold_words
  rw [View.canon_cons_unit_zero off_zero, View.readCov_unit_zero _ off_zero]
  simp only [View.readAt_eq_ld, harg2.read_unread, harg5.read_unread,
    View.ld_unit_zero (S := S1x2048) off_zero, View.ld_unit_zero (S := S2048x512) off_zero, View.ld_unit_zero (S := S1x512) off_zero]

theorem pieces_A_3 (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : cond0_0 i) (hc1 : ¬cond0_1 i)
    (x0 : Vec F S1x2048 .f32) (x1 x2 x3 x4 : Vec F S2048x512 .f32) (x5 : Vec F S5x512 .f32) :
    VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1) = k0_pay1 (k0_pay7 x0) (k0_pay6 (F := F)) x4 := by
  have cov : ∀ y, ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
    fun y => View.cover_of_tiledL _ S1x512.size (by sl_kernel_rfl) y
  rw [View.read_writes_eq_canon _ _ _ cov]
  unfold kernelRun0_A; dsimp only
  sl_unfold_words
  rw [View.canon_cons_unit_zero off_zero, View.readCov_unit_zero _ off_zero]
  simp only [View.readAt_eq_ld, harg2.read_unread, harg6.read_unread,
    View.ld_unit_zero (S := S1x2048) off_zero, View.ld_unit_zero (S := S2048x512) off_zero, View.ld_unit_zero (S := S1x512) off_zero]

/-! ## Contraction block 7: the output block, from the five rows and the accumulators read back after their last store -/

theorem pieces_C_out (c : Dev nD) (i : grid0.Coords) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S2048x512 .f32) (harg5 : arg5.IsWhole) (arg6 : Memref sig .tc .vmem S2048x512 .f32) (harg6 : arg6.IsWhole) (arg7 : Memref sig .tc .vmem S5x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (hc0 : ¬cond0_0 i) (hc1 : cond0_1 i)
    (x0 : Vec F S1x2048 .f32) (x1 x2 x3 x4 : Vec F S2048x512 .f32) (x5 : Vec F S5x512 .f32) (xs0 xs1 xs2 xs3 : Vec F S1x512 .f32) :
    VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1)
      = k0_pay2 (View.ld x5 (Rect.unit (s := S5x512) ![0, 0] S1x512.size inb_S5x512_S1x512_0_0)) (View.ld x5 (Rect.unit (s := S5x512) ![1, 0] S1x512.size inb_S5x512_S1x512_1_0)) (View.ld x5 (Rect.unit (s := S5x512) ![2, 0] S1x512.size inb_S5x512_S1x512_2_0)) (View.ld x5 (Rect.unit (s := S5x512) ![3, 0] S1x512.size inb_S5x512_S1x512_3_0)) (View.ld x5 (Rect.unit (s := S5x512) ![4, 0] S1x512.size inb_S5x512_S1x512_4_0)) (k0_pay8 x0 xs0 x1) (k0_pay9 x0 xs1 x2) (k0_pay10 x0 xs2 x3) (k0_pay1 (k0_pay7 x0) xs3 x4) := by
  have cov : ∀ y, ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 xs3).1, y ∈ pc.1.set :=
    fun y => View.cover_of_tiledL _ S1x512.size (by sl_kernel_rfl) y
  rw [View.read_writes_eq_canon _ _ _ cov]
  unfold kernelRun0_C; dsimp only
  sl_unfold_words
  rw [View.canon_unit_zero off_zero]
  simp only [View.readCov_unit_zero (S := S1x512) _ off_zero, View.readAt_eq_ld, harg2.read_unread, harg3.read_unread, harg4.read_unread, harg5.read_unread, harg6.read_unread, harg7.read_unread,
    harg9.read_unread, harg10.read_unread, harg11.read_unread, harg12.read_unread,
    View.ld_unit_zero (S := S1x2048) off_zero, View.ld_unit_zero (S := S2048x512) off_zero, View.ld_unit_zero (S := S1x512) off_zero]

/-! ## A row of the 5 × 512 block -/

/-- Row `r` read through the 1 × 512 rectangle at offset `(r, 0)`: its entry `(0, q)` is the block's entry `(r, q)`. -/
theorem ld_row (X : Vec F S5x512 .f32) (r : Fin 5) (inb : ∀ a, (![r.val, 0] : Fin 2 → Nat) a + S1x512.size a ≤ S5x512.size a) (q : Fin 512) :
    View.ld X (Rect.unit (s := S5x512) ![r.val, 0] S1x512.size inb) (Idealize.ShloMosaic.ValueIdx.ix2 (0 : Fin 1) q)
      = X (Idealize.ShloMosaic.ValueIdx.ix2 r q) := by
  show X ((Rect.unit (s := S5x512) ![r.val, 0] S1x512.size inb).emb (Idealize.ShloMosaic.ValueIdx.ix2 (0 : Fin 1) q)) = _
  refine congrArg X (funext fun a => Fin.ext ?_)
  rw [Rect.emb_apply]
  match a with
  | ⟨0, _⟩ => show r.val + 1 * 0 = r.val; omega
  | ⟨1, _⟩ => show 0 + 1 * q.val = q.val; omega

/-! The five rows at the offsets the body loads them at. -/

theorem ld_row0 (X : Vec F S5x512 .f32) (q : Fin 512) :
    View.ld X (Rect.unit (s := S5x512) ![0, 0] S1x512.size inb_S5x512_S1x512_0_0) (Idealize.ShloMosaic.ValueIdx.ix2 (0 : Fin 1) q)
      = X (Idealize.ShloMosaic.ValueIdx.ix2 (0 : Fin 5) q) := ld_row X 0 inb_S5x512_S1x512_0_0 q

theorem ld_row1 (X : Vec F S5x512 .f32) (q : Fin 512) :
    View.ld X (Rect.unit (s := S5x512) ![1, 0] S1x512.size inb_S5x512_S1x512_1_0) (Idealize.ShloMosaic.ValueIdx.ix2 (0 : Fin 1) q)
      = X (Idealize.ShloMosaic.ValueIdx.ix2 (1 : Fin 5) q) := ld_row X 1 inb_S5x512_S1x512_1_0 q

theorem ld_row2 (X : Vec F S5x512 .f32) (q : Fin 512) :
    View.ld X (Rect.unit (s := S5x512) ![2, 0] S1x512.size inb_S5x512_S1x512_2_0) (Idealize.ShloMosaic.ValueIdx.ix2 (0 : Fin 1) q)
      = X (Idealize.ShloMosaic.ValueIdx.ix2 (2 : Fin 5) q) := ld_row X 2 inb_S5x512_S1x512_2_0 q

theorem ld_row3 (X : Vec F S5x512 .f32) (q : Fin 512) :
    View.ld X (Rect.unit (s := S5x512) ![3, 0] S1x512.size inb_S5x512_S1x512_3_0) (Idealize.ShloMosaic.ValueIdx.ix2 (0 : Fin 1) q)
      = X (Idealize.ShloMosaic.ValueIdx.ix2 (3 : Fin 5) q) := ld_row X 3 inb_S5x512_S1x512_3_0 q

theorem ld_row4 (X : Vec F S5x512 .f32) (q : Fin 512) :
    View.ld X (Rect.unit (s := S5x512) ![4, 0] S1x512.size inb_S5x512_S1x512_4_0) (Idealize.ShloMosaic.ValueIdx.ix2 (0 : Fin 1) q)
      = X (Idealize.ShloMosaic.ValueIdx.ix2 (4 : Fin 5) q) := ld_row X 4 inb_S5x512_S1x512_4_0 q

end Cert.KernelIdeal.Cell

end
-- ==== Proof.Spec.lean ====
/-
  One step of an LSTM cell on a single row, as ONE function of the argument arrays, entry by entry over the
  extended reals.

  The previous output `h` and the input `x` (one row of 8192 entries each) are laid side by side into a row of
  16384 entries, `h` first. Each of the four gates multiplies that row into its own 16384 × 8192 weight matrix
  and adds its own bias: entry `q` of a gate's pre-activation is
      Σ_{k < 16384} [h, x](k) · W(k, q) + b(q).
  The forget, input and output gates pass it through the logistic function 1 / (1 + e^(-t)), the candidate
  through tanh. The new cell state is  c·z_f + z·z_i  and the result is  z_o · tanh (c·z_f + z·z_i).
  Nothing here asks the entries to be finite: sums and products are the extended reals' own.
-/
import Idealize.ShloMosaic.PureOps.Ideal
import Idealize.ShloMosaic.Lib.ValueIdx

noncomputable section

open scoped BigOperators

namespace Cert.Spec

open Idealize.ShloMosaic Idealize.ShloMosaic.ValueIdx

/-- A row of 8192 entries. -/
abbrev Row : Shape := ⟨2, ![1, 8192]⟩
/-- A weight matrix: 16384 rows (the contraction axis), 8192 columns (the gate axis). -/
abbrev Mat : Shape := ⟨2, ![16384, 8192]⟩
/-- A bias vector. -/
abbrev Bias : Shape := ⟨1, ![8192]⟩

/-- Entry `k` of the row `[h, x]`: `h` fills positions 0 … 8191, `x` positions 8192 … 16383. -/
def cat (h x : FVec Ideal Row .f32) (k : Fin 16384) : EReal :=
  if hk : k.val < 8192 then h (ix2 (0 : Fin 1) (⟨k.val, hk⟩ : Fin 8192))
  else x (ix2 (0 : Fin 1) (⟨k.val - 8192, by have := k.isLt; omega⟩ : Fin 8192))

/-- Entry `q` of the product of the row `[h, x]` with the matrix `W`: the sum over the whole contraction axis. -/
def dot (h x : FVec Ideal Row .f32) (W : FVec Ideal Mat .f32) (q : Fin 8192) : EReal :=
  ∑ k : Fin 16384, cat h x k * W (ix2 k q)

/-- Entry `q` of a gate's pre-activation: the product's entry plus the gate's bias. -/
def pre (h x : FVec Ideal Row .f32) (W : FVec Ideal Mat .f32) (b : FVec Ideal Bias .f32) (q : Fin 8192) : EReal :=
  dot h x W q + b (ix1 q)

/-- How one entry of the result is made from the four pre-activations `pf pi pc po` (forget, input, candidate,
    output) and the old cell state's entry `c`:  logistic(po) · tanh (c · logistic(pf) + tanh(pc) · logistic(pi)). -/
def gate (pf pi pc po c : EReal) : EReal :=
  Ideal.logistic po * Ideal.tanh (c * Ideal.logistic pf + Ideal.tanh pc * Ideal.logistic pi)

/-- Entry `q` of the cell's output. -/
def cellAt (x h c : FVec Ideal Row .f32) (Wf : FVec Ideal Mat .f32) (bf : FVec Ideal Bias .f32)
    (Wi : FVec Ideal Mat .f32) (bi : FVec Ideal Bias .f32) (Wc : FVec Ideal Mat .f32) (bc : FVec Ideal Bias .f32)
    (Wo : FVec Ideal Mat .f32) (bo : FVec Ideal Bias .f32) (q : Fin 8192) : EReal :=
  gate (pre h x Wf bf q) (pre h x Wi bi q) (pre h x Wc bc q) (pre h x Wo bo q) (c (ix2 (0 : Fin 1) q))

/-- The cell's output row, as one function of the eleven argument arrays (in the programs' argument order). -/
def cell (x h c : FVec Ideal Row .f32) (Wf : FVec Ideal Mat .f32) (bf : FVec Ideal Bias .f32)
    (Wi : FVec Ideal Mat .f32) (bi : FVec Ideal Bias .f32) (Wc : FVec Ideal Mat .f32) (bc : FVec Ideal Bias .f32)
    (Wo : FVec Ideal Mat .f32) (bo : FVec Ideal Bias .f32) : FVec Ideal Row .f32 :=
  fun i => cellAt x h c Wf bf Wi bi Wc bc Wo bo (i 1)

end Cert.Spec

end
-- ==== Proof.SumBlocks.lean ====
/-
  The contraction axis of 16384 entries cut into 8 consecutive blocks of 2048.

  Position `2048·kb + j` (block `kb`, offset `j`) runs over every position of the axis exactly once, so the sum over
  the whole axis is the sum over the blocks of each block's own sum. `partialDot … n` adds up the first `n` blocks:
  it starts at 0, grows by one block's contribution at a time, and after the eighth block is the whole product's
  entry. The sums are the extended reals' own; nothing asks an entry to be finite.
-/
import proofs.«170833_j66554813218861_2_alg».proof.Proof.Spec
import Mathlib.Algebra.BigOperators.Fin
import Mathlib.Logic.Equiv.Fin.Basic

noncomputable section

open scoped BigOperators

namespace Cert.SumBlocks

open Cert.Spec Idealize.ShloMosaic Idealize.ShloMosaic.ValueIdx

/-- The contraction index 2048·kb + j of block kb. -/
def kidx (kb : Fin 8) (j : Fin 2048) : Fin 16384 :=
  ⟨2048 * kb.val + j.val, by have := kb.isLt; have := j.isLt; omega⟩

/-- The position's value: block `kb` starts at `2048·kb`. -/
@[simp] theorem kidx_val (kb : Fin 8) (j : Fin 2048) : (kidx kb j).val = 2048 * kb.val + j.val := rfl

/-- What contraction block kb contributes to entry q of the row-times-matrix product. -/
def blockDot (h x : FVec Ideal Row .f32) (W : FVec Ideal Mat .f32) (kb : Fin 8) (q : Fin 8192) : EReal :=
  ∑ j : Fin 2048, cat h x (kidx kb j) * W (ix2 (kidx kb j) q)

/-- The first n blocks' contributions added up (n ≤ 8). -/
def partialDot (h x : FVec Ideal Row .f32) (W : FVec Ideal Mat .f32) (n : ℕ) (q : Fin 8192) : EReal :=
  ∑ kb ∈ Finset.range n, if hk : kb < 8 then blockDot h x W ⟨kb, hk⟩ q else 0

/-- No block yet: the empty sum. -/
theorem partialDot_zero (h x : FVec Ideal Row .f32) (W : FVec Ideal Mat .f32) (q : Fin 8192) :
    partialDot h x W 0 q = 0 := by
  unfold partialDot
  exact Finset.sum_range_zero _

/-- One more block adds that block's contribution. -/
theorem partialDot_succ (h x : FVec Ideal Row .f32) (W : FVec Ideal Mat .f32) (n : ℕ) (hn : n < 8)
    (q : Fin 8192) :
    partialDot h x W (n + 1) q = partialDot h x W n q + blockDot h x W ⟨n, hn⟩ q := by
  unfold partialDot
  rw [Finset.sum_range_succ, dif_pos hn]

/-- (block, offset) ↦ position, as a bijection of the 8 × 2048 pairs with the 16384 positions. -/
def blockEquiv : Fin 8 × Fin 2048 ≃ Fin 16384 :=
  finProdFinEquiv.trans (finCongr (by norm_num))

/-- The bijection is `kidx`. -/
theorem blockEquiv_apply (kb : Fin 8) (j : Fin 2048) : blockEquiv (kb, j) = kidx kb j := by
  apply Fin.ext
  simp only [blockEquiv, Equiv.trans_apply, finCongr_apply, Fin.coe_cast, finProdFinEquiv_apply_val, kidx_val]
  omega

/-- A sum over all positions is the sum over the blocks of the sums over the offsets. -/
theorem sum_blocks (f : Fin 16384 → EReal) : ∑ kb : Fin 8, ∑ j : Fin 2048, f (kidx kb j) = ∑ k : Fin 16384, f k := by
  rw [← Fintype.sum_prod_type']
  exact Fintype.sum_equiv blockEquiv _ _ (fun p => by rw [← blockEquiv_apply])

/-- All eight blocks: the whole product's entry. -/
theorem partialDot_eight (h x : FVec Ideal Row .f32) (W : FVec Ideal Mat .f32) (q : Fin 8192) :
    partialDot h x W 8 q = Cert.Spec.dot h x W q := by
  unfold partialDot
  rw [Finset.sum_range (fun kb => if hk : kb < 8 then blockDot h x W ⟨kb, hk⟩ q else 0)]
  simp only [Fin.is_lt, dite_true, Fin.eta]
  unfold blockDot dot
  exact sum_blocks (fun k => cat h x k * W (ix2 k q))

end Cert.SumBlocks

end
-- ==== Proof.KI.HostValues.lean ====
/-
  The two arrays the host operations build before the region, read one entry at a time.

  The first lays the previous output and the input side by side in one row of 16384 entries: entry `k` is `[h, x](k)`.
  The second stacks five rows of 8192 entries: the four gates' biases, each a vector laid as a one-row matrix, and
  the old cell state, a one-row matrix flattened to a vector and laid as a row again. Row `r` of the stack at column
  `q` is therefore entry `q` of the `r`-th of those five.
-/
import proofs.«170833_j66554813218861_2_alg».proof.Proof.KI.Shared
import proofs.«170833_j66554813218861_2_alg».proof.Proof.Spec
import proofs.«170833_j66554813218861_2_alg».proof.Proof.SumBlocks
import Idealize.ShloMosaic.Lib.StableHlo.Run
import Idealize.ShloMosaic.Lib.Pipeline.Value
import Idealize.ShloMosaic.Lib.ValueIdx

noncomputable section

open scoped BigOperators

namespace Cert.KernelIdeal.Found

open Cert.KernelIdeal Cert.KernelIdeal.Gen Cert.KernelIdeal.Cell Cert.Spec Cert.SumBlocks
open Idealize.ShloMosaic Idealize.ShloMosaic.TcCoe Idealize.ShloMosaic.ValueIdx Idealize.SL.Sem

variable (m : (ℓ : Loc nD τ sig) → Buf (Elt Ideal) ℓ) (c : Dev nD)

/-- A five-operand operation's result, each operand's contents at its own reference. -/
theorem nary5_result {x a b d e y : Ref sig .tc}
    (f : ((k : Fin 5) → ((![x, a, b, d, e] : Fin 5 → Ref sig .tc) k).ty.Contents (Elt Ideal)) → y.ty.Contents (Elt Ideal)) (hxs hy)
    (G : Valuation τ sig (Elt Ideal)) :
    (StableHlo.nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

/-- The side-by-side row as a term: the two argument rows joined along the column axis. -/
theorem V_v0_term :
    (V m c main_v0 : S1x16384.Idx → EReal)
      = concatenate S1x16384 1 [⟨S1x8192, (m ((c : Thread nD τ).loc main_arg1) : S1x8192.Idx → EReal)⟩, ⟨S1x8192, (m ((c : Thread nD τ).loc main_arg0) : S1x8192.Idx → EReal)⟩]
          concatenates_S1x8192_S1x8192_S1x16384_d1 := by
  dsimp only [V, hostOps0]
  after_results

/-- Entry `k` of the side-by-side row: the first row's entry below 8192, the second's, 8192 less, from there on. -/
theorem V_v0_apply (k : Fin 16384) :
    (V m c main_v0 : S1x16384.Idx → EReal) (ix2 (0 : Fin 1) k)
      = Cert.Spec.cat (m ((c : Thread nD τ).loc main_arg1)) (m ((c : Thread nD τ).loc main_arg0)) k := by
  rw [V_v0_term]
  unfold Cert.Spec.cat
  by_cases hk : k.val < 8192
  · rw [dif_pos hk]
    exact concatenate_pair_apply_left (t := S1x16384) (s₁ := S1x8192) (s₂ := S1x8192) 1 _ _
      concatenates_S1x8192_S1x8192_S1x16384_d1 (ix2 (0 : Fin 1) k) rfl (ix2 (0 : Fin 1) (⟨k.val, hk⟩ : Fin 8192))
      (fun b => by match b with | ⟨0, _⟩ => rfl | ⟨1, _⟩ => rfl)
  · rw [dif_neg hk]
    exact concatenate_pair_apply_right (t := S1x16384) (s₁ := S1x8192) (s₂ := S1x8192) 1 _ _
      concatenates_S1x8192_S1x8192_S1x16384_d1 (ix2 (0 : Fin 1) k) rfl rfl
      (ix2 (0 : Fin 1) (⟨k.val - 8192, by have := k.isLt; omega⟩ : Fin 8192))
      (fun b hb => by match b with | ⟨0, _⟩ => rfl | ⟨1, _⟩ => exact absurd rfl hb)
      (by show (k.val - 8192) + 8192 = k.val; omega)

/-- The five-row stack as a term: the five one-row matrices joined along the row axis. -/
theorem V_v7_term :
    (V m c main_v7 : S5x8192.Idx → EReal)
      = concatenate S5x8192 0
          [⟨S1x8192, broadcastInDim S1x8192 ![1] bcast_S8192_S1x8192_1 (m ((c : Thread nD τ).loc main_arg4) : S8192.Idx → EReal)⟩,
           ⟨S1x8192, broadcastInDim S1x8192 ![1] bcast_S8192_S1x8192_1 (m ((c : Thread nD τ).loc main_arg6) : S8192.Idx → EReal)⟩,
           ⟨S1x8192, broadcastInDim S1x8192 ![1] bcast_S8192_S1x8192_1 (m ((c : Thread nD τ).loc main_arg8) : S8192.Idx → EReal)⟩,
           ⟨S1x8192, broadcastInDim S1x8192 ![1] bcast_S8192_S1x8192_1 (m ((c : Thread nD τ).loc main_arg10) : S8192.Idx → EReal)⟩,
           ⟨S1x8192, broadcastInDim S1x8192 ![1] bcast_S8192_S1x8192_1
              (shapeCast S8192 (m ((c : Thread nD τ).loc main_arg2) : S1x8192.Idx → EReal) shapeCasts_S1x8192_S8192)⟩]
          concatenates_S1x8192_S1x8192_S1x8192_S1x8192_S1x8192_S5x8192_d0 := by
  dsimp only [V, hostOps0]
  simp only [StableHlo.after_cons, StableHlo.after_nil]
  rw [nary5_result]
  repeat (first
    | rw [StableHlo.unary_result] | rw [StableHlo.reshape_result] | rw [StableHlo.binary_result]
    | (rw [StableHlo.unary_result_ne]; rotate_left; decide)
    | (rw [StableHlo.reshape_result_ne]; rotate_left; decide)
    | (rw [StableHlo.binary_result_ne]; rotate_left; decide))
  rfl

/-- A vector laid as a one-row matrix reads its own entry at every column. -/
theorem bcast_row_apply (x : S8192.Idx → EReal) (q : Fin 8192) :
    broadcastInDim S1x8192 ![1] bcast_S8192_S1x8192_1 x (ix2 (0 : Fin 1) q) = x (ix1 q) :=
  broadcastInDim_apply _ bcast_S8192_S1x8192_1 x _ (ix1 q) (fun a => match a with
    | ⟨0, _⟩ => by show q.val = if (8192 : Nat) = 1 then 0 else q.val; rw [if_neg (by decide)])

/-- A one-row matrix flattened to a vector reads the row's entry. -/
theorem flat_row_apply (x : S1x8192.Idx → EReal) (q : Fin 8192) :
    shapeCast S8192 x shapeCasts_S1x8192_S8192 (ix1 q) = x (ix2 (0 : Fin 1) q) := by
  refine (shapeCast_dropUnit_apply ![8192] x shapeCasts_S1x8192_S8192 (ix1 q)).trans (congrArg x ?_)
  funext a
  match a with
  | ⟨0, _⟩ => rfl
  | ⟨1, _⟩ => rfl

/-- Row 0 of the stack is the first bias. -/
theorem V_v7_row0 (q : Fin 8192) :
    (V m c main_v7 : S5x8192.Idx → EReal) (ix2 (0 : Fin 5) q) = m ((c : Thread nD τ).loc main_arg4) (ix1 q) := by
  rw [V_v7_term]
  refine (concatenate_apply_piece (t := S5x8192) 0 _ _
    (ix2 (0 : Fin 5) q) 0 (by simp) S1x8192 _ rfl rfl 0 rfl (ix2 (0 : Fin 1) q)
    (fun b hb => by match b with | ⟨0, _⟩ => exact absurd rfl hb | ⟨1, _⟩ => rfl) rfl).trans ?_
  exact bcast_row_apply _ q

/-- Row 1 is the second bias. -/
theorem V_v7_row1 (q : Fin 8192) :
    (V m c main_v7 : S5x8192.Idx → EReal) (ix2 (1 : Fin 5) q) = m ((c : Thread nD τ).loc main_arg6) (ix1 q) := by
  rw [V_v7_term]
  refine (concatenate_apply_piece (t := S5x8192) 0 _ _
    (ix2 (1 : Fin 5) q) 1 (by simp) S1x8192 _ rfl rfl 1 rfl (ix2 (0 : Fin 1) q)
    (fun b hb => by match b with | ⟨0, _⟩ => exact absurd rfl hb | ⟨1, _⟩ => rfl) rfl).trans ?_
  exact bcast_row_apply _ q

/-- Row 2 is the third bias. -/
theorem V_v7_row2 (q : Fin 8192) :
    (V m c main_v7 : S5x8192.Idx → EReal) (ix2 (2 : Fin 5) q) = m ((c : Thread nD τ).loc main_arg8) (ix1 q) := by
  rw [V_v7_term]
  refine (concatenate_apply_piece (t := S5x8192) 0 _ _
    (ix2 (2 : Fin 5) q) 2 (by simp) S1x8192 _ rfl rfl 2 rfl (ix2 (0 : Fin 1) q)
    (fun b hb => by match b with | ⟨0, _⟩ => exact absurd rfl hb | ⟨1, _⟩ => rfl) rfl).trans ?_
  exact bcast_row_apply _ q

/-- Row 3 is the fourth bias. -/
theorem V_v7_row3 (q : Fin 8192) :
    (V m c main_v7 : S5x8192.Idx → EReal) (ix2 (3 : Fin 5) q) = m ((c : Thread nD τ).loc main_arg10) (ix1 q) := by
  rw [V_v7_term]
  refine (concatenate_apply_piece (t := S5x8192) 0 _ _
    (ix2 (3 : Fin 5) q) 3 (by simp) S1x8192 _ rfl rfl 3 rfl (ix2 (0 : Fin 1) q)
    (fun b hb => by match b with | ⟨0, _⟩ => exact absurd rfl hb | ⟨1, _⟩ => rfl) rfl).trans ?_
  exact bcast_row_apply _ q

/-- Row 4 is the old cell state's row. -/
theorem V_v7_row4 (q : Fin 8192) :
    (V m c main_v7 : S5x8192.Idx → EReal) (ix2 (4 : Fin 5) q) = m ((c : Thread nD τ).loc main_arg2) (ix2 (0 : Fin 1) q) := by
  rw [V_v7_term]
  refine (concatenate_apply_piece (t := S5x8192) 0 _ _
    (ix2 (4 : Fin 5) q) 4 (by simp) S1x8192 _ rfl rfl 4 rfl (ix2 (0 : Fin 1) q)
    (fun b hb => by match b with | ⟨0, _⟩ => exact absurd rfl hb | ⟨1, _⟩ => rfl) rfl).trans ?_
  exact (bcast_row_apply _ q).trans (flat_row_apply _ q)

end Cert.KernelIdeal.Found
end
-- ==== Proof.KI.BlockReads.lean ====
/-
  Each input window's block at a grid point, read one entry at a time.

  The grid is 16 × 8 with the contraction axis innermost: point `t` is column block `t / 8`, contraction block
  `t mod 8`. An entry of a block sits in its array, on each axis, at the block index times the block's extent plus its
  own coordinate. So the row window's entry `j` is entry `2048·(t mod 8) + j` of the side-by-side row, a weight
  window's entry `(j, q)` is the matrix's entry `(2048·(t mod 8) + j, 512·(t / 8) + q)`, and the five-row window's
  entry `(r, q)` is the stack's entry `(r, 512·(t / 8) + q)`.
-/
import proofs.«170833_j66554813218861_2_alg».proof.Proof.KI.Shared
import proofs.«170833_j66554813218861_2_alg».proof.Proof.Spec
import proofs.«170833_j66554813218861_2_alg».proof.Proof.SumBlocks
import Idealize.ShloMosaic.Lib.Pipeline.Value
import Idealize.ShloMosaic.Lib.ValueIdx

noncomputable section

open scoped BigOperators

namespace Cert.KernelIdeal.Found

open Cert.KernelIdeal Cert.KernelIdeal.Gen Cert.KernelIdeal.Cell Cert.Spec Cert.SumBlocks
open Idealize.ShloMosaic Idealize.ShloMosaic.TcCoe Idealize.ShloMosaic.ValueIdx Idealize.SL.Sem

variable (m : (ℓ : Loc nD τ sig) → Buf (Elt Ideal) ℓ) (c : Dev nD)

/-- The contraction block of grid point `t`: the contraction axis is innermost and has 8 blocks. -/
def kbOf (t : Fin cfg0.N) : Fin 8 := ⟨t.val % 8, Nat.mod_lt _ (by decide)⟩
@[simp] theorem kbOf_val (t : Fin cfg0.N) : (kbOf t).val = t.val % 8 := rfl

/-- Column `512·(t / 8) + q`: column `q` of the column block of grid point `t`. -/
def colOf (t : Fin cfg0.N) (q : Fin 512) : Fin 8192 :=
  ⟨512 * (t.val / 8) + q.val, by have ht : t.val < 128 := lt_of_lt_of_eq t.isLt N_0; have := q.isLt; omega⟩
@[simp] theorem colOf_val (t : Fin cfg0.N) (q : Fin 512) : (colOf t q).val = 512 * (t.val / 8) + q.val := rfl

/-- Window 0's block index at point `t`: row block 0, contraction block `t mod 8`. -/
theorem idx0 : ∀ t : Fin cfg0.N, win0_0.index t (0 : Fin 2) = 0 ∧ win0_0.index t (1 : Fin 2) = t.val % 8 :=
  (by decide +kernel : ∀ t : Fin grid0.N, win0_0.index t (0 : Fin 2) = 0 ∧ win0_0.index t (1 : Fin 2) = t.val % 8)

/-- Entry `j` of window 0's block at point `t` is entry `2048·(t mod 8) + j` of the side-by-side row. -/
theorem iblk0_apply (t : Fin cfg0.N) (j : Fin 2048) :
    iblk m c 0 t (ix2 (0 : Fin 1) j)
      = (V m c main_v0 : S1x16384.Idx → EReal) (ix2 (0 : Fin 1) (kidx (kbOf t) j)) := by
  show (V m c main_v0 : S1x16384.Idx → EReal) (((cfg0.win 0).blk t).view.emb (ix2 (0 : Fin 1) j)) = _
  refine congrArg (V m c main_v0 : S1x16384.Idx → EReal) ?_
  obtain ⟨e0, e1⟩ := idx0 t
  funext a; apply Fin.ext
  match a with
  | ⟨0, _⟩ => show win0_0.index t (0 : Fin 2) * 1 + 1 * 0 = 0; omega
  | ⟨1, _⟩ => show win0_0.index t (1 : Fin 2) * 2048 + 1 * j.val = 2048 * (t.val % 8) + j.val; omega

/-- Window 1's block index at point `t`: contraction block `t mod 8`, column block `t / 8`. -/
theorem idx1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)

/-- Entry `(j, q)` of window 1's block at point `t` is the weight matrix's entry at row `2048·(t mod 8) + j`, column
    `512·(t / 8) + q`. -/
theorem iblk1_apply (t : Fin cfg0.N) (j : Fin 2048) (q : Fin 512) :
    iblk m c 1 t (ix2 j q) = m ((c : Thread nD τ).loc main_arg3) (ix2 (kidx (kbOf t) j) (colOf t q)) := by
  show V m c main_arg3 (((cfg0.win 1).blk t).view.emb (ix2 j q)) = _
  rw [V_main_arg3]
  refine congrArg (m ((c : Thread nD τ).loc main_arg3)) ?_
  obtain ⟨e0, e1⟩ := idx1 t
  funext a; apply Fin.ext
  match a with
  | ⟨0, _⟩ => show win0_1.index t (0 : Fin 2) * 2048 + 1 * j.val = 2048 * (t.val % 8) + j.val; omega
  | ⟨1, _⟩ => show win0_1.index t (1 : Fin 2) * 512 + 1 * q.val = 512 * (t.val / 8) + q.val; omega

/-- Window 2's block index at point `t`: contraction block `t mod 8`, column block `t / 8`. -/
theorem idx2 : ∀ t : Fin cfg0.N, win0_2.index t (0 : Fin 2) = t.val % 8 ∧ win0_2.index t (1 : Fin 2) = t.val / 8 :=
  (by decide +kernel : ∀ t : Fin grid0.N, win0_2.index t (0 : Fin 2) = t.val % 8 ∧ win0_2.index t (1 : Fin 2) = t.val / 8)

/-- Entry `(j, q)` of window 2's block at point `t` is the weight matrix's entry at row `2048·(t mod 8) + j`, column
    `512·(t / 8) + q`. -/
theorem iblk2_apply (t : Fin cfg0.N) (j : Fin 2048) (q : Fin 512) :
    iblk m c 2 t (ix2 j q) = m ((c : Thread nD τ).loc main_arg5) (ix2 (kidx (kbOf t) j) (colOf t q)) := by
  show V m c main_arg5 (((cfg0.win 2).blk t).view.emb (ix2 j q)) = _
  rw [V_main_arg5]
  refine congrArg (m ((c : Thread nD τ).loc main_arg5)) ?_
  obtain ⟨e0, e1⟩ := idx2 t
  funext a; apply Fin.ext
  match a with
  | ⟨0, _⟩ => show win0_2.index t (0 : Fin 2) * 2048 + 1 * j.val = 2048 * (t.val % 8) + j.val; omega
  | ⟨1, _⟩ => show win0_2.index t (1 : Fin 2) * 512 + 1 * q.val = 512 * (t.val / 8) + q.val; omega

/-- Window 3's block index at point `t`: contraction block `t mod 8`, column block `t / 8`. -/
theorem idx3 : ∀ t : Fin cfg0.N, win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8)

/-- Entry `(j, q)` of window 3's block at point `t` is the weight matrix's entry at row `2048·(t mod 8) + j`, column
    `512·(t / 8) + q`. -/
theorem iblk3_apply (t : Fin cfg0.N) (j : Fin 2048) (q : Fin 512) :
    iblk m c 3 t (ix2 j q) = m ((c : Thread nD τ).loc main_arg7) (ix2 (kidx (kbOf t) j) (colOf t q)) := by
  show V m c main_arg7 (((cfg0.win 3).blk t).view.emb (ix2 j q)) = _
  rw [V_main_arg7]
  refine congrArg (m ((c : Thread nD τ).loc main_arg7)) ?_
  obtain ⟨e0, e1⟩ := idx3 t
  funext a; apply Fin.ext
  match a with
  | ⟨0, _⟩ => show win0_3.index t (0 : Fin 2) * 2048 + 1 * j.val = 2048 * (t.val % 8) + j.val; omega
  | ⟨1, _⟩ => show win0_3.index t (1 : Fin 2) * 512 + 1 * q.val = 512 * (t.val / 8) + q.val; omega

/-- Window 4's block index at point `t`: contraction block `t mod 8`, column block `t / 8`. -/
theorem idx4 : ∀ t : Fin cfg0.N, win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8)

/-- Entry `(j, q)` of window 4's block at point `t` is the weight matrix's entry at row `2048·(t mod 8) + j`, column
    `512·(t / 8) + q`. -/
theorem iblk4_apply (t : Fin cfg0.N) (j : Fin 2048) (q : Fin 512) :
    iblk m c 4 t (ix2 j q) = m ((c : Thread nD τ).loc main_arg9) (ix2 (kidx (kbOf t) j) (colOf t q)) := by
  show V m c main_arg9 (((cfg0.win 4).blk t).view.emb (ix2 j q)) = _
  rw [V_main_arg9]
  refine congrArg (m ((c : Thread nD τ).loc main_arg9)) ?_
  obtain ⟨e0, e1⟩ := idx4 t
  funext a; apply Fin.ext
  match a with
  | ⟨0, _⟩ => show win0_4.index t (0 : Fin 2) * 2048 + 1 * j.val = 2048 * (t.val % 8) + j.val; omega
  | ⟨1, _⟩ => show win0_4.index t (1 : Fin 2) * 512 + 1 * q.val = 512 * (t.val / 8) + q.val; omega

/-- Window 5's block index at point `t`: row block 0, column block `t / 8`. -/
theorem idx5 : ∀ t : Fin cfg0.N, win0_5.index t (0 : Fin 2) = 0 ∧ win0_5.index t (1 : Fin 2) = t.val / 8 :=
  (by decide +kernel : ∀ t : Fin grid0.N, win0_5.index t (0 : Fin 2) = 0 ∧ win0_5.index t (1 : Fin 2) = t.val / 8)

/-- Entry `(r, q)` of window 5's block at point `t` is the five-row stack's entry at row `r`, column `512·(t / 8) + q`. -/
theorem iblk5_apply (t : Fin cfg0.N) (r : Fin 5) (q : Fin 512) :
    iblk m c 5 t (ix2 r q) = (V m c main_v7 : S5x8192.Idx → EReal) (ix2 r (colOf t q)) := by
  show (V m c main_v7 : S5x8192.Idx → EReal) (((cfg0.win 5).blk t).view.emb (ix2 r q)) = _
  refine congrArg (V m c main_v7 : S5x8192.Idx → EReal) ?_
  obtain ⟨e0, e1⟩ := idx5 t
  funext a; apply Fin.ext
  match a with
  | ⟨0, _⟩ => show win0_5.index t (0 : Fin 2) * 5 + 1 * r.val = r.val; omega
  | ⟨1, _⟩ => show win0_5.index t (1 : Fin 2) * 512 + 1 * q.val = 512 * (t.val / 8) + q.val; omega

end Cert.KernelIdeal.Found
end
-- ==== Proof.KI.Cover.lean ====
/-
  The output row is covered by the blocks the pipeline writes back.

  The grid has 16 × 8 points; point `t` has coordinates `(t / 8, t % 8)`: the column block of the gates' axis, and the
  block of the contraction axis. The output window's block at `t` is the 1 × 512 block of the 1 × 8192 row at block
  index `(0, t / 8)`: columns `512 · (t / 8)` … `512 · (t / 8) + 511`. It is written back at the last contraction
  block, `t % 8 = 7`. So column `j` is written back at the point `8 · (j / 512) + 7`, every column is covered, and entry
  `(0, q)` of the block at `t` is entry `(0, 512 · (t / 8) + q)` of the row.
-/
import proofs.«170833_j66554813218861_2_alg».proof.Proof.Gen.KernelIdeal.Launch
import proofs.«170833_j66554813218861_2_alg».proof.Proof.Gen.KernelIdeal.Points
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.TcCoe Idealize.SL.Sem

/-- The output window's block index at point `t`: row block 0, column block `t / 8`. Decided over the 128 points. -/
theorem idx6 : ∀ t : Fin cfg0.N, win0_6.index t (0 : Fin 2) = 0 ∧ win0_6.index t (1 : Fin 2) = t.val / 8 :=
  (by decide +kernel : ∀ t : Fin grid0.N, _)

/-- An index of the row is in point `t`'s block iff each coordinate is in the block's range on its axis: from the
    block index times the block's extent, for the block's extent. -/
theorem mem_blk6 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v8).slice (win0_6.rect t)).set ↔ _
  rw [View.set_slice_whole, Rect.mem_set_unit]
  exact Iff.rfl

/-- Every index of the row lies in a block that is written back: column `j` in the block of the point
    `8 · (j / 512) + 7`, whose column block is `j / 512` and whose contraction block is the last. -/
theorem cover6 (i : S1x8192.Idx) : ∃ t : Fin cfg0.N, (cfg0.win 6).flush t = true ∧ i ∈ ((cfg0.win 6).blk t).view.set := by
  have hN : cfg0.N = 128 := N_0
  have hi0 : (i 0).val < 1 := (i 0).isLt
  have hi1 : (i 1).val < 8192 := (i 1).isLt
  let t : Fin cfg0.N := ⟨8 * ((i 1).val / 512) + 7, by omega⟩
  have ht : t.val = 8 * ((i 1).val / 512) + 7 := rfl
  obtain ⟨e0, e1⟩ := idx6 t
  refine ⟨t, (flush0_6 t).mpr (by omega), ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 512 ≤ (i 1).val ∧ (i 1).val < win0_6.index t (1 : Fin 2) * 512 + 512; omega

/-- Where an entry of the block at point `t` sits in the row: entry `(0, q)` at `(0, 512 · (t / 8) + q)` — on each axis
    the block index times the block's extent plus the coordinate inside the block. -/
theorem blk6_emb (t : Fin cfg0.N) (q : Fin 512) :
    ((cfg0.win 6).blk t).view.emb (Idealize.ShloMosaic.ValueIdx.ix2 (0 : Fin 1) q)
      = Idealize.ShloMosaic.ValueIdx.ix2 (0 : Fin 1) (⟨512 * (t.val / 8) + q.val, by have := t.isLt; have h : cfg0.N = 128 := N_0; omega⟩ : Fin 8192) := by
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 512 + 1 * q.val = 512 * (t.val / 8) + q.val; omega

end Cert.KernelIdeal.Cover

end
-- ==== Proof.Payload.lean ====
/-
  The kernel body's arithmetic, read one entry at a time over the extended reals.

  At the ideal values a change of format is the identity, a reshape of a row to the same shape is the identity, and
  the zero word is the number 0. So each accumulator update is
      acc(q) + Σ_{j < 2048} row(j) · W(j, q),
  the reset writes 0 everywhere, and the last step is the gate formula of the four accumulators, each with its bias
  added, and the old cell state.
-/
import proofs.«170833_j66554813218861_2_alg».proof.Proof.Gen.KernelIdeal.Skeleton
import proofs.«170833_j66554813218861_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The row-times-matrix contraction: row axis 1 against matrix axis 0, 2048 positions. -/
local notation "D" => dot_S1x2048_S2048x512_S1x512_1_0_0_1_n_n

/-- The row operand's index: its row coordinate is the output's row coordinate … -/
theorem lhsIdx_0 (i : S1x512.Idx) (k : (DotDims.contr D).Idx) : (DotDims.lhsIdx D i k 0).val = (i 0).val := by
  unfold DotDims.lhsIdx
  rw [dif_neg (show ¬(0 : Fin S1x2048.rank) ∈ DotDims.lhsBatch D by decide),
    dif_pos (show (0 : Fin S1x2048.rank) ∈ DotDims.lhsNonContracting D by decide)]
  rfl

/-- … and its column coordinate is the contraction position. -/
theorem lhsIdx_1 (i : S1x512.Idx) (k : (DotDims.contr D).Idx) :
    (DotDims.lhsIdx D i k 1).val = (k ⟨0, by decide⟩).val :=
  DotDims.lhsIdx_val_of_single D rfl i k

/-- The matrix operand's index: its row coordinate is the contraction position … -/
theorem rhsIdx_0 (i : S1x512.Idx) (k : (DotDims.contr D).Idx) :
    (DotDims.rhsIdx D i k 0).val = (k ⟨0, by decide⟩).val :=
  DotDims.rhsIdx_val_of_single D rfl i k

/-- … and its column coordinate is the output's column coordinate. -/
theorem rhsIdx_1 (i : S1x512.Idx) (k : (DotDims.contr D).Idx) : (DotDims.rhsIdx D i k 1).val = (i 1).val := by
  unfold DotDims.rhsIdx
  rw [dif_neg (show ¬(1 : Fin S2048x512.rank) ∈ DotDims.rhsBatch D by decide),
    dif_pos (show (1 : Fin S2048x512.rank) ∈ DotDims.rhsNonContracting D by decide)]
  rfl

/-- At output entry `(0, q)` and contraction position `k` the row is read at `(0, k)` … -/
theorem lhsIdx_eq (q : Fin 512) (k : Fin 2048) :
    DotDims.lhsIdx D (ix2 (0 : Fin 1) q) ((contrEquiv1 D 2048 rfl rfl).symm k) = ix2 (0 : Fin 1) k :=
  funext fun a => Fin.ext (by
    match a with
    | ⟨0, _⟩ => exact lhsIdx_0 _ _
    | ⟨1, _⟩ => exact (lhsIdx_1 _ _).trans (contrEquiv1_symm_val D 2048 rfl rfl k))

/-- … and the matrix at `(k, q)`. -/
theorem rhsIdx_eq (q : Fin 512) (k : Fin 2048) :
    DotDims.rhsIdx D (ix2 (0 : Fin 1) q) ((contrEquiv1 D 2048 rfl rfl).symm k) = ix2 k q :=
  funext fun a => Fin.ext (by
    match a with
    | ⟨0, _⟩ => exact (rhsIdx_0 _ _).trans (contrEquiv1_symm_val D 2048 rfl rfl k)
    | ⟨1, _⟩ => exact rhsIdx_1 _ _)

/-- The product into the zero accumulator: entry `q` is `Σ_j l(0, j) · r(j, q)`. -/
theorem matmul_zero_apply (l : FVec Ideal S1x2048 .bf16) (r : FVec Ideal S2048x512 .bf16) (q : Fin 512) :
    matmul D none l r (constant S1x512 .f32 0x00000000#32) (ix2 (0 : Fin 1) q)
      = ∑ j : Fin 2048, l (ix2 (0 : Fin 1) j) * r (ix2 j q) := by
  show FloatOps.matmul D none l r (constant S1x512 .f32 0x00000000#32) (ix2 (0 : Fin 1) q) = _
  rw [Ideal.matmul_constant_zero_apply, ← Equiv.sum_comp (contrEquiv1 D 2048 rfl rfl).symm]
  refine Finset.sum_congr rfl fun k _ => ?_
  rw [lhsIdx_eq, rhsIdx_eq]

/-- The cast of the loaded row keeps every entry. -/
theorem pay7_apply (v3 : Vec Ideal S1x2048 .f32) (j : Fin 2048) :
    k0_pay7 (F := Ideal) v3 (ix2 (0 : Fin 1) j) = v3 (ix2 (0 : Fin 1) j) := by
  unfold k0_pay7
  rw [truncf_apply, shapeCast_self]

/-- An accumulator update over an already-cast row `l`: the accumulator's entry plus the block's sum. -/
theorem acc_update_apply (l : FVec Ideal S1x2048 .bf16) (a : FVec Ideal S1x512 .f32) (w : FVec Ideal S2048x512 .f32)
    (q : Fin 512) :
    shapeCast S1x512
        (addf a (matmul D none l (truncf .bf16 w bitsLt_bf16_f32) (constant S1x512 .f32 0x00000000#32)))
        shapeCasts_S1x512_S1x512 (ix2 (0 : Fin 1) q)
      = a (ix2 (0 : Fin 1) q) + ∑ j : Fin 2048, l (ix2 (0 : Fin 1) j) * w (ix2 j q) := by
  rw [shapeCast_self, addf_apply, matmul_zero_apply]
  rfl

theorem pay8_apply (v3 : Vec Ideal S1x2048 .f32) (v6 : Vec Ideal S1x512 .f32) (v7 : Vec Ideal S2048x512 .f32) (q : Fin 512) :
    k0_pay8 (F := Ideal) v3 v6 v7 (ix2 (0 : Fin 1) q)
      = v6 (ix2 (0 : Fin 1) q) + ∑ j : Fin 2048, v3 (ix2 (0 : Fin 1) j) * v7 (ix2 j q) := by
  unfold k0_pay8
  refine (acc_update_apply (k0_pay7 v3) v6 v7 q).trans ?_
  simp only [pay7_apply]

theorem pay9_apply (v3 : Vec Ideal S1x2048 .f32) (v14 : Vec Ideal S1x512 .f32) (v15 : Vec Ideal S2048x512 .f32) (q : Fin 512) :
    k0_pay9 (F := Ideal) v3 v14 v15 (ix2 (0 : Fin 1) q)
      = v14 (ix2 (0 : Fin 1) q) + ∑ j : Fin 2048, v3 (ix2 (0 : Fin 1) j) * v15 (ix2 j q) := by
  unfold k0_pay9
  refine (acc_update_apply (k0_pay7 v3) v14 v15 q).trans ?_
  simp only [pay7_apply]

theorem pay10_apply (v3 : Vec Ideal S1x2048 .f32) (v22 : Vec Ideal S1x512 .f32) (v23 : Vec Ideal S2048x512 .f32) (q : Fin 512) :
    k0_pay10 (F := Ideal) v3 v22 v23 (ix2 (0 : Fin 1) q)
      = v22 (ix2 (0 : Fin 1) q) + ∑ j : Fin 2048, v3 (ix2 (0 : Fin 1) j) * v23 (ix2 j q) := by
  unfold k0_pay10
  refine (acc_update_apply (k0_pay7 v3) v22 v23 q).trans ?_
  simp only [pay7_apply]

theorem pay1_apply (v5 : FVec Ideal S1x2048 .bf16) (v30 : Vec Ideal S1x512 .f32) (v31 : Vec Ideal S2048x512 .f32) (q : Fin 512) :
    k0_pay1 (F := Ideal) v5 v30 v31 (ix2 (0 : Fin 1) q)
      = v30 (ix2 (0 : Fin 1) q) + ∑ j : Fin 2048, v5 (ix2 (0 : Fin 1) j) * v31 (ix2 j q) := by
  unfold k0_pay1
  exact acc_update_apply v5 v30 v31 q

/-- The reset value: the zero word everywhere, the number 0. -/
theorem zero_row_apply (y : S1x512.Idx) :
    shapeCast S1x512 (broadcast S1x512 (Scalar.ofBits (F := Ideal) .f32 0x00000000#32)) shapeCasts_S1x512_S1x512 y = 0 := by
  rw [shapeCast_self, broadcast_apply]
  exact Ideal.ofBits_zero_f32

theorem pay3_apply (y : S1x512.Idx) : k0_pay3 (F := Ideal) y = 0 := zero_row_apply y
theorem pay4_apply (y : S1x512.Idx) : k0_pay4 (F := Ideal) y = 0 := zero_row_apply y
theorem pay5_apply (y : S1x512.Idx) : k0_pay5 (F := Ideal) y = 0 := zero_row_apply y
theorem pay6_apply (y : S1x512.Idx) : k0_pay6 (F := Ideal) y = 0 := zero_row_apply y

/-- The last step: the gate formula of the accumulators plus their biases, and the old cell state. -/
theorem pay2_apply (v41 v43 v45 v47 v49 v51 v54 v57 v60 : Vec Ideal S1x512 .f32) (q : Fin 512) :
    k0_pay2 (F := Ideal) v41 v43 v45 v47 v49 v51 v54 v57 v60 (ix2 (0 : Fin 1) q)
      = Cert.Spec.gate (v51 (ix2 (0 : Fin 1) q) + v41 (ix2 (0 : Fin 1) q)) (v54 (ix2 (0 : Fin 1) q) + v43 (ix2 (0 : Fin 1) q))
          (v57 (ix2 (0 : Fin 1) q) + v45 (ix2 (0 : Fin 1) q)) (v60 (ix2 (0 : Fin 1) q) + v47 (ix2 (0 : Fin 1) q))
          (v49 (ix2 (0 : Fin 1) q)) := by
  unfold k0_pay2
  simp only [shapeCast_self]
  rfl

end Cert.KernelIdeal.Pay

end
-- ==== Proof.KI.CellValue.lean ====
/-
  What the kernel's run leaves in the result array, at the extended reals: `Cert.Spec.cell` of the eleven arguments.

  Position `t` of the 16 × 8 grid works on column block `t / 8` and contraction block `t % 8`. Read at entry `q` of
  the block, one step adds to an accumulator the products of the row `[h, x]` with a gate's weights over the 2048
  contraction indices of block `t % 8`, at column `512·(t / 8) + q`. So after position `t` each accumulator holds the
  sum of the first `t % 8 + 1` blocks' contributions (by induction on the position: a position ≡ 0 starts from the
  zero it has just stored, any other continues what the position before left, in the same column block); after a
  position ≡ 7 that is all eight blocks, which is the whole contraction. There the body's last store is the gate
  formula of the four sums plus the bias rows and the cell-state row of the stacked operand, which is `Cert.Spec.cellAt`
  at that column. Those positions are exactly the ones whose block is written back, their blocks tile the result row,
  and so the row ends holding `Cert.Spec.cell`.
-/
import proofs.«170833_j66554813218861_2_alg».proof.Proof.KI.Frame
import proofs.«170833_j66554813218861_2_alg».proof.Proof.KI.Pieces
import proofs.«170833_j66554813218861_2_alg».proof.Proof.KI.HostValues
import proofs.«170833_j66554813218861_2_alg».proof.Proof.KI.BlockReads
import proofs.«170833_j66554813218861_2_alg».proof.Proof.KI.Cover
import proofs.«170833_j66554813218861_2_alg».proof.Proof.Payload
import proofs.«170833_j66554813218861_2_alg».proof.Proof.SumBlocks

set_option maxRecDepth 16384

noncomputable section

open scoped BigOperators

namespace Cert.KernelIdeal.CellValue

open Cert.KernelIdeal Cert.KernelIdeal.Gen Cert.KernelIdeal.Cell Cert.KernelIdeal.Pay Cert.KernelIdeal.Found Cert.KernelIdeal.Cover
open Cert.Spec Cert.SumBlocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## One step, read at an entry -/

/-- Entry `j` of the row block the point loads is entry `2048·(t % 8) + j` of `[h, x]`. -/
theorem row_at (t : Fin cfg0.N) (j : Fin 2048) :
    iblk m c 0 t (ix2 (0 : Fin 1) j) = cat (m ((c : Thread nD τ).loc main_arg1)) (m ((c : Thread nD τ).loc main_arg0)) (kidx (kbOf t) j) :=
  (iblk0_apply m c t j).trans (V_v0_apply m c _)

/-- The step of accumulator 0: what it held plus contraction block `t % 8`'s contribution at column `512·(t / 8) + q`. -/
theorem step_0 (t : Fin cfg0.N) (acc : Vec Ideal S1x512 .f32) (q : Fin 512) :
    k0_pay8 (F := Ideal) (iblk m c 0 t) acc (iblk m c 1 t) (ix2 (0 : Fin 1) q) = acc (ix2 (0 : Fin 1) q) + blockDot (m ((c : Thread nD τ).loc main_arg1)) (m ((c : Thread nD τ).loc main_arg0)) (m ((c : Thread nD τ).loc main_arg3)) (kbOf t) (colOf t q) := by
  refine (pay8_apply (iblk m c 0 t) acc (iblk m c 1 t) q).trans ?_
  refine congrArg (acc (ix2 (0 : Fin 1) q) + ·) (Finset.sum_congr rfl fun j _ => ?_)
  exact congrArg₂ (· * ·) (row_at m c t j) (iblk1_apply m c t j q)

/-- The step of accumulator 1: what it held plus contraction block `t % 8`'s contribution at column `512·(t / 8) + q`. -/
theorem step_1 (t : Fin cfg0.N) (acc : Vec Ideal S1x512 .f32) (q : Fin 512) :
    k0_pay9 (F := Ideal) (iblk m c 0 t) acc (iblk m c 2 t) (ix2 (0 : Fin 1) q) = acc (ix2 (0 : Fin 1) q) + blockDot (m ((c : Thread nD τ).loc main_arg1)) (m ((c : Thread nD τ).loc main_arg0)) (m ((c : Thread nD τ).loc main_arg5)) (kbOf t) (colOf t q) := by
  refine (pay9_apply (iblk m c 0 t) acc (iblk m c 2 t) q).trans ?_
  refine congrArg (acc (ix2 (0 : Fin 1) q) + ·) (Finset.sum_congr rfl fun j _ => ?_)
  exact congrArg₂ (· * ·) (row_at m c t j) (iblk2_apply m c t j q)

/-- The step of accumulator 2: what it held plus contraction block `t % 8`'s contribution at column `512·(t / 8) + q`. -/
theorem step_2 (t : Fin cfg0.N) (acc : Vec Ideal S1x512 .f32) (q : Fin 512) :
    k0_pay10 (F := Ideal) (iblk m c 0 t) acc (iblk m c 3 t) (ix2 (0 : Fin 1) q) = acc (ix2 (0 : Fin 1) q) + blockDot (m ((c : Thread nD τ).loc main_arg1)) (m ((c : Thread nD τ).loc main_arg0)) (m ((c : Thread nD τ).loc main_arg7)) (kbOf t) (colOf t q) := by
  refine (pay10_apply (iblk m c 0 t) acc (iblk m c 3 t) q).trans ?_
  refine congrArg (acc (ix2 (0 : Fin 1) q) + ·) (Finset.sum_congr rfl fun j _ => ?_)
  exact congrArg₂ (· * ·) (row_at m c t j) (iblk3_apply m c t j q)

/-- The step of accumulator 3: what it held plus contraction block `t % 8`'s contribution at column `512·(t / 8) + q`. -/
theorem step_3 (t : Fin cfg0.N) (acc : Vec Ideal S1x512 .f32) (q : Fin 512) :
    k0_pay1 (F := Ideal) (k0_pay7 (iblk m c 0 t)) acc (iblk m c 4 t) (ix2 (0 : Fin 1) q) = acc (ix2 (0 : Fin 1) q) + blockDot (m ((c : Thread nD τ).loc main_arg1)) (m ((c : Thread nD τ).loc main_arg0)) (m ((c : Thread nD τ).loc main_arg9)) (kbOf t) (colOf t q) := by
  refine (pay1_apply (k0_pay7 (iblk m c 0 t)) acc (iblk m c 4 t) q).trans ?_
  refine congrArg (acc (ix2 (0 : Fin 1) q) + ·) (Finset.sum_congr rfl fun j _ => ?_)
  exact congrArg₂ (· * ·) ((pay7_apply (iblk m c 0 t) j).trans (row_at m c t j)) (iblk4_apply m c t j q)

/-! ## What each case leaves at a grid point, as the body's arithmetic of the point's blocks -/

-- the terms for a point's staging buffers and blocks are long
set_option maxHeartbeats 400000

theorem atA_acc0 (t : Fin cfg0.N) (h0 : t.val % 8 = 0) (h1 : ¬t.val % 8 = 7) :
    (atA m c t h0 h1).2.1 = k0_pay8 (F := Ideal) (iblk m c 0 t) (k0_pay3 (F := Ideal)) (iblk m c 1 t) := by
  unfold atA sout0_A_0
  dsimp only
  exact pieces_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem atA_acc1 (t : Fin cfg0.N) (h0 : t.val % 8 = 0) (h1 : ¬t.val % 8 = 7) :
    (atA m c t h0 h1).2.2.1 = k0_pay9 (F := Ideal) (iblk m c 0 t) (k0_pay4 (F := Ideal)) (iblk m c 2 t) := by
  unfold atA sout0_A_1
  dsimp only
  exact pieces_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem atA_acc2 (t : Fin cfg0.N) (h0 : t.val % 8 = 0) (h1 : ¬t.val % 8 = 7) :
    (atA m c t h0 h1).2.2.2.1 = k0_pay10 (F := Ideal) (iblk m c 0 t) (k0_pay5 (F := Ideal)) (iblk m c 3 t) := by
  unfold atA sout0_A_2
  dsimp only
  exact pieces_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem atA_acc3 (t : Fin cfg0.N) (h0 : t.val % 8 = 0) (h1 : ¬t.val % 8 = 7) :
    (atA m c t h0 h1).2.2.2.2 = k0_pay1 (F := Ideal) (k0_pay7 (iblk m c 0 t)) (k0_pay6 (F := Ideal)) (iblk m c 4 t) := by
  unfold atA sout0_A_3
  dsimp only
  exact pieces_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem atB_acc0 (t : Fin cfg0.N) (h0 : ¬t.val % 8 = 0) (h1 : ¬t.val % 8 = 7) (prev : Vec Ideal S1x512 .f32 × Vec Ideal S1x512 .f32 × Vec Ideal S1x512 .f32 × Vec Ideal S1x512 .f32 × Vec Ideal S1x512 .f32) :
    (atB m c t h0 h1 prev).2.1 = k0_pay8 (F := Ideal) (iblk m c 0 t) prev.2.1 (iblk m c 1 t) := by
  unfold atB sout0_B_0
  dsimp only
  exact pieces_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2

theorem atB_acc1 (t : Fin cfg0.N) (h0 : ¬t.val % 8 = 0) (h1 : ¬t.val % 8 = 7) (prev : Vec Ideal S1x512 .f32 × Vec Ideal S1x512 .f32 × Vec Ideal S1x512 .f32 × Vec Ideal S1x512 .f32 × Vec Ideal S1x512 .f32) :
    (atB m c t h0 h1 prev).2.2.1 = k0_pay9 (F := Ideal) (iblk m c 0 t) prev.2.2.1 (iblk m c 2 t) := by
  unfold atB sout0_B_1
  dsimp only
  exact pieces_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2

theorem atB_acc2 (t : Fin cfg0.N) (h0 : ¬t.val % 8 = 0) (h1 : ¬t.val % 8 = 7) (prev : Vec Ideal S1x512 .f32 × Vec Ideal S1x512 .f32 × Vec Ideal S1x512 .f32 × Vec Ideal S1x512 .f32 × Vec Ideal S1x512 .f32) :
    (atB m c t h0 h1 prev).2.2.2.1 = k0_pay10 (F := Ideal) (iblk m c 0 t) prev.2.2.2.1 (iblk m c 3 t) := by
  unfold atB sout0_B_2
  dsimp only
  exact pieces_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2

theorem atB_acc3 (t : Fin cfg0.N) (h0 : ¬t.val % 8 = 0) (h1 : ¬t.val % 8 = 7) (prev : Vec Ideal S1x512 .f32 × Vec Ideal S1x512 .f32 × Vec Ideal S1x512 .f32 × Vec Ideal S1x512 .f32 × Vec Ideal S1x512 .f32) :
    (atB m c t h0 h1 prev).2.2.2.2 = k0_pay1 (F := Ideal) (k0_pay7 (iblk m c 0 t)) prev.2.2.2.2 (iblk m c 4 t) := by
  unfold atB sout0_B_3
  dsimp only
  exact pieces_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) prev.2.1 prev.2.2.1 prev.2.2.2.1 prev.2.2.2.2

theorem atC_acc0 (t : Fin cfg0.N) (h0 : ¬t.val % 8 = 0) (h1 : t.val % 8 = 7) (prev : Vec Ideal S1x512 .f32 × Vec Ideal S1x512 .f32 × Vec Ideal S1x512 .f32 × Vec Ideal S1x512 .f32 × Vec Ideal S1x512 .f32) :
    (atC m c t h0 h1 prev).2.1 = k0_pay8 (F := Ideal) (iblk m c 0 t) prev.2.1 (iblk m c 1 t) := by
  unfold atC sout0_C_0
  dsimp only
  exact pieces_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2

theorem atC_acc1 (t : Fin cfg0.N) (h0 : ¬t.val % 8 = 0) (h1 : t.val % 8 = 7) (prev : Vec Ideal S1x512 .f32 × Vec Ideal S1x512 .f32 × Vec Ideal S1x512 .f32 × Vec Ideal S1x512 .f32 × Vec Ideal S1x512 .f32) :
    (atC m c t h0 h1 prev).2.2.1 = k0_pay9 (F := Ideal) (iblk m c 0 t) prev.2.2.1 (iblk m c 2 t) := by
  unfold atC sout0_C_1
  dsimp only
  exact pieces_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2

theorem atC_acc2 (t : Fin cfg0.N) (h0 : ¬t.val % 8 = 0) (h1 : t.val % 8 = 7) (prev : Vec Ideal S1x512 .f32 × Vec Ideal S1x512 .f32 × Vec Ideal S1x512 .f32 × Vec Ideal S1x512 .f32 × Vec Ideal S1x512 .f32) :
    (atC m c t h0 h1 prev).2.2.2.1 = k0_pay10 (F := Ideal) (iblk m c 0 t) prev.2.2.2.1 (iblk m c 3 t) := by
  unfold atC sout0_C_2
  dsimp only
  exact pieces_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2

theorem atC_acc3 (t : Fin cfg0.N) (h0 : ¬t.val % 8 = 0) (h1 : t.val % 8 = 7) (prev : Vec Ideal S1x512 .f32 × Vec Ideal S1x512 .f32 × Vec Ideal S1x512 .f32 × Vec Ideal S1x512 .f32 × Vec Ideal S1x512 .f32) :
    (atC m c t h0 h1 prev).2.2.2.2 = k0_pay1 (F := Ideal) (k0_pay7 (iblk m c 0 t)) prev.2.2.2.2 (iblk m c 4 t) := by
  unfold atC sout0_C_3
  dsimp only
  exact pieces_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2

theorem atC_out (t : Fin cfg0.N) (h0 : ¬t.val % 8 = 0) (h1 : t.val % 8 = 7) (prev : Vec Ideal S1x512 .f32 × Vec Ideal S1x512 .f32 × Vec Ideal S1x512 .f32 × Vec Ideal S1x512 .f32 × Vec Ideal S1x512 .f32) :
    (atC m c t h0 h1 prev).1 = k0_pay2 (F := Ideal)
      (View.ld (iblk m c 5 t) (Rect.unit (s := S5x512) ![0, 0] S1x512.size inb_S5x512_S1x512_0_0))
      (View.ld (iblk m c 5 t) (Rect.unit (s := S5x512) ![1, 0] S1x512.size inb_S5x512_S1x512_1_0))
      (View.ld (iblk m c 5 t) (Rect.unit (s := S5x512) ![2, 0] S1x512.size inb_S5x512_S1x512_2_0))
      (View.ld (iblk m c 5 t) (Rect.unit (s := S5x512) ![3, 0] S1x512.size inb_S5x512_S1x512_3_0))
      (View.ld (iblk m c 5 t) (Rect.unit (s := S5x512) ![4, 0] S1x512.size inb_S5x512_S1x512_4_0))
      (k0_pay8 (F := Ideal) (iblk m c 0 t) prev.2.1 (iblk m c 1 t)) (k0_pay9 (F := Ideal) (iblk m c 0 t) prev.2.2.1 (iblk m c 2 t)) (k0_pay10 (F := Ideal) (iblk m c 0 t) prev.2.2.2.1 (iblk m c 3 t)) (k0_pay1 (F := Ideal) (k0_pay7 (iblk m c 0 t)) prev.2.2.2.2 (iblk m c 4 t)) := by
  unfold atC out0_C_6
  dsimp only
  exact pieces_C_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) prev.2.1 prev.2.2.1 prev.2.2.2.1 prev.2.2.2.2

/-! ## The accumulators after each position -/

/-- The four accumulators after position `n`, read at entry `q`: the first `n % 8 + 1` contraction blocks' contributions
    to the four products at column `512·(n / 8) + q`. -/
def AccAt (n : ℕ) (hn : n < cfg0.N) : Prop := ∀ q : Fin 512,
  (outsAt0 m c n hn).2.1 (ix2 (0 : Fin 1) q) = partialDot (m ((c : Thread nD τ).loc main_arg1)) (m ((c : Thread nD τ).loc main_arg0)) (m ((c : Thread nD τ).loc main_arg3)) (n % 8 + 1) (colOf ⟨n, hn⟩ q)
  ∧ (outsAt0 m c n hn).2.2.1 (ix2 (0 : Fin 1) q) = partialDot (m ((c : Thread nD τ).loc main_arg1)) (m ((c : Thread nD τ).loc main_arg0)) (m ((c : Thread nD τ).loc main_arg5)) (n % 8 + 1) (colOf ⟨n, hn⟩ q)
  ∧ (outsAt0 m c n hn).2.2.2.1 (ix2 (0 : Fin 1) q) = partialDot (m ((c : Thread nD τ).loc main_arg1)) (m ((c : Thread nD τ).loc main_arg0)) (m ((c : Thread nD τ).loc main_arg7)) (n % 8 + 1) (colOf ⟨n, hn⟩ q)
  ∧ (outsAt0 m c n hn).2.2.2.2 (ix2 (0 : Fin 1) q) = partialDot (m ((c : Thread nD τ).loc main_arg1)) (m ((c : Thread nD τ).loc main_arg0)) (m ((c : Thread nD τ).loc main_arg9)) (n % 8 + 1) (colOf ⟨n, hn⟩ q)

/-- A position ≡ 0 starts each sum from the zero it has just stored. -/
theorem accAt_A (t : Fin cfg0.N) (h0 : t.val % 8 = 0) (h1 : ¬t.val % 8 = 7) : AccAt m c t.val t.isLt := by
  intro q
  rw [outsAt0_A m c t h0 h1, atA_acc0 m c t h0 h1, atA_acc1 m c t h0 h1, atA_acc2 m c t h0 h1, atA_acc3 m c t h0 h1]
  have e : t.val % 8 + 1 = 0 + 1 := by rw [h0]
  have hk : kbOf t = ⟨0, by decide⟩ := Fin.ext h0
  rw [e]
  refine ⟨?_, ?_, ?_, ?_⟩
  · rw [step_0 m c t _ q, pay3_apply, partialDot_succ _ _ _ 0 (by decide), partialDot_zero, hk]
  · rw [step_1 m c t _ q, pay4_apply, partialDot_succ _ _ _ 0 (by decide), partialDot_zero, hk]
  · rw [step_2 m c t _ q, pay5_apply, partialDot_succ _ _ _ 0 (by decide), partialDot_zero, hk]
  · rw [step_3 m c t _ q, pay6_apply, partialDot_succ _ _ _ 0 (by decide), partialDot_zero, hk]

/-- Any other position continues what the position before left: the same column block, one more contraction block. -/
theorem accAt_step (n : ℕ) (hn : n + 1 < cfg0.N) (h0 : ¬(n + 1) % 8 = 0)
    (s0 s1 s2 s3 : Vec Ideal S1x512 .f32)
    (ih : ∀ q : Fin 512, s0 (ix2 (0 : Fin 1) q) = partialDot (m ((c : Thread nD τ).loc main_arg1)) (m ((c : Thread nD τ).loc main_arg0)) (m ((c : Thread nD τ).loc main_arg3)) (n % 8 + 1) (colOf ⟨n, Nat.lt_of_succ_lt hn⟩ q)
      ∧ s1 (ix2 (0 : Fin 1) q) = partialDot (m ((c : Thread nD τ).loc main_arg1)) (m ((c : Thread nD τ).loc main_arg0)) (m ((c : Thread nD τ).loc main_arg5)) (n % 8 + 1) (colOf ⟨n, Nat.lt_of_succ_lt hn⟩ q)
      ∧ s2 (ix2 (0 : Fin 1) q) = partialDot (m ((c : Thread nD τ).loc main_arg1)) (m ((c : Thread nD τ).loc main_arg0)) (m ((c : Thread nD τ).loc main_arg7)) (n % 8 + 1) (colOf ⟨n, Nat.lt_of_succ_lt hn⟩ q)
      ∧ s3 (ix2 (0 : Fin 1) q) = partialDot (m ((c : Thread nD τ).loc main_arg1)) (m ((c : Thread nD τ).loc main_arg0)) (m ((c : Thread nD τ).loc main_arg9)) (n % 8 + 1) (colOf ⟨n, Nat.lt_of_succ_lt hn⟩ q))
    (q : Fin 512) :
    k0_pay8 (F := Ideal) (iblk m c 0 (⟨n + 1, hn⟩ : Fin cfg0.N)) s0 (iblk m c 1 (⟨n + 1, hn⟩ : Fin cfg0.N)) (ix2 (0 : Fin 1) q) = partialDot (m ((c : Thread nD τ).loc main_arg1)) (m ((c : Thread nD τ).loc main_arg0)) (m ((c : Thread nD τ).loc main_arg3)) ((n + 1) % 8 + 1) (colOf ⟨n + 1, hn⟩ q)
    ∧ k0_pay9 (F := Ideal) (iblk m c 0 (⟨n + 1, hn⟩ : Fin cfg0.N)) s1 (iblk m c 2 (⟨n + 1, hn⟩ : Fin cfg0.N)) (ix2 (0 : Fin 1) q) = partialDot (m ((c : Thread nD τ).loc main_arg1)) (m ((c : Thread nD τ).loc main_arg0)) (m ((c : Thread nD τ).loc main_arg5)) ((n + 1) % 8 + 1) (colOf ⟨n + 1, hn⟩ q)
    ∧ k0_pay10 (F := Ideal) (iblk m c 0 (⟨n + 1, hn⟩ : Fin cfg0.N)) s2 (iblk m c 3 (⟨n + 1, hn⟩ : Fin cfg0.N)) (ix2 (0 : Fin 1) q) = partialDot (m ((c : Thread nD τ).loc main_arg1)) (m ((c : Thread nD τ).loc main_arg0)) (m ((c : Thread nD τ).loc main_arg7)) ((n + 1) % 8 + 1) (colOf ⟨n + 1, hn⟩ q)
    ∧ k0_pay1 (F := Ideal) (k0_pay7 (iblk m c 0 (⟨n + 1, hn⟩ : Fin cfg0.N))) s3 (iblk m c 4 (⟨n + 1, hn⟩ : Fin cfg0.N)) (ix2 (0 : Fin 1) q) = partialDot (m ((c : Thread nD τ).loc main_arg1)) (m ((c : Thread nD τ).loc main_arg0)) (m ((c : Thread nD τ).loc main_arg9)) ((n + 1) % 8 + 1) (colOf ⟨n + 1, hn⟩ q) := by
  have hN : n + 1 < 128 := lt_of_lt_of_eq hn N_0
  have hm : (n + 1) % 8 = n % 8 + 1 := by omega
  have hlt : (n + 1) % 8 < 8 := Nat.mod_lt _ (by decide)
  have hcol : colOf (⟨n, Nat.lt_of_succ_lt hn⟩ : Fin cfg0.N) q = colOf (⟨n + 1, hn⟩ : Fin cfg0.N) q := by
    apply Fin.ext; show 512 * (n / 8) + q.val = 512 * ((n + 1) / 8) + q.val; omega
  have hk : kbOf (⟨n + 1, hn⟩ : Fin cfg0.N) = ⟨(n + 1) % 8, hlt⟩ := rfl
  obtain ⟨i0, i1, i2, i3⟩ := ih q
  refine ⟨?_, ?_, ?_, ?_⟩
  · rw [step_0 m c ⟨n + 1, hn⟩ s0 q, i0, hcol, hk, partialDot_succ _ _ _ ((n + 1) % 8) hlt, ← hm]
  · rw [step_1 m c ⟨n + 1, hn⟩ s1 q, i1, hcol, hk, partialDot_succ _ _ _ ((n + 1) % 8) hlt, ← hm]
  · rw [step_2 m c ⟨n + 1, hn⟩ s2 q, i2, hcol, hk, partialDot_succ _ _ _ ((n + 1) % 8) hlt, ← hm]
  · rw [step_3 m c ⟨n + 1, hn⟩ s3 q, i3, hcol, hk, partialDot_succ _ _ _ ((n + 1) % 8) hlt, ← hm]

/-- THE ACCUMULATION, at every position. -/
theorem accAt : ∀ (n : ℕ) (hn : n < cfg0.N), AccAt m c n hn := by
  intro n
  induction n with
  | zero => intro hn; exact accAt_A m c ⟨0, hn⟩ (Nat.zero_mod _) (by show ¬(0 : ℕ) % 8 = 7; decide)
  | succ n ih =>
    intro hn
    by_cases h0 : (n + 1) % 8 = 0
    · exact accAt_A m c ⟨n + 1, hn⟩ h0 (by show ¬(n + 1) % 8 = 7; omega)
    · intro q
      by_cases h1 : (n + 1) % 8 = 7
      · rw [outsAt0_C m c ⟨n + 1, hn⟩ h0 h1, atC_acc0 m c ⟨n + 1, hn⟩ h0 h1 _, atC_acc1 m c ⟨n + 1, hn⟩ h0 h1 _, atC_acc2 m c ⟨n + 1, hn⟩ h0 h1 _, atC_acc3 m c ⟨n + 1, hn⟩ h0 h1 _]
        exact accAt_step m c n hn h0 _ _ _ _ (ih (Nat.lt_of_succ_lt hn)) q
      · rw [outsAt0_B m c ⟨n + 1, hn⟩ h0 h1, atB_acc0 m c ⟨n + 1, hn⟩ h0 h1 _, atB_acc1 m c ⟨n + 1, hn⟩ h0 h1 _, atB_acc2 m c ⟨n + 1, hn⟩ h0 h1 _, atB_acc3 m c ⟨n + 1, hn⟩ h0 h1 _]
        exact accAt_step m c n hn h0 _ _ _ _ (ih (Nat.lt_of_succ_lt hn)) q

/-! ## The output block at the last contraction block -/

/-- At a position ≡ 7 the output's buffer holds the gate formula of the four finished accumulators, the four bias rows
    and the cell-state row of the stacked operand's block. -/
theorem out_eq (t : Fin cfg0.N) (h0 : ¬t.val % 8 = 0) (h1 : t.val % 8 = 7) :
    (outsAt0 m c t.val t.isLt).1 = k0_pay2 (F := Ideal)
      (View.ld (iblk m c 5 t) (Rect.unit (s := S5x512) ![0, 0] S1x512.size inb_S5x512_S1x512_0_0))
      (View.ld (iblk m c 5 t) (Rect.unit (s := S5x512) ![1, 0] S1x512.size inb_S5x512_S1x512_1_0))
      (View.ld (iblk m c 5 t) (Rect.unit (s := S5x512) ![2, 0] S1x512.size inb_S5x512_S1x512_2_0))
      (View.ld (iblk m c 5 t) (Rect.unit (s := S5x512) ![3, 0] S1x512.size inb_S5x512_S1x512_3_0))
      (View.ld (iblk m c 5 t) (Rect.unit (s := S5x512) ![4, 0] S1x512.size inb_S5x512_S1x512_4_0))
      (outsAt0 m c t.val t.isLt).2.1 (outsAt0 m c t.val t.isLt).2.2.1 (outsAt0 m c t.val t.isLt).2.2.2.1 (outsAt0 m c t.val t.isLt).2.2.2.2 := by
  rw [outsAt0_C m c t h0 h1, atC_out m c t h0 h1 _, atC_acc0 m c t h0 h1 _, atC_acc1 m c t h0 h1 _, atC_acc2 m c t h0 h1 _, atC_acc3 m c t h0 h1 _]

/-- Read at entry `q`: the cell's output at column `512·(t / 8) + q`. -/
theorem out_at (t : Fin cfg0.N) (h1 : t.val % 8 = 7) (q : Fin 512) :
    (outsAt0 m c t.val t.isLt).1 (ix2 (0 : Fin 1) q) = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (colOf t q) := by
  have h0 : ¬t.val % 8 = 0 := by omega
  rw [out_eq m c t h0 h1]
  refine (pay2_apply _ _ _ _ _ _ _ _ _ q).trans ?_
  obtain ⟨a0, a1, a2, a3⟩ := accAt m c t.val t.isLt q
  have e8 : t.val % 8 + 1 = 8 := by omega
  rw [a0, a1, a2, a3, e8, partialDot_eight, partialDot_eight, partialDot_eight, partialDot_eight]
  rw [ld_row0, ld_row1, ld_row2, ld_row3, ld_row4]
  rw [iblk5_apply m c t 0 q, iblk5_apply m c t 1 q, iblk5_apply m c t 2 q, iblk5_apply m c t 3 q, iblk5_apply m c t 4 q]
  rw [V_v7_row0, V_v7_row1, V_v7_row2, V_v7_row3, V_v7_row4]
  unfold cellAt pre
  rfl

/-! ## From the blocks to the array -/

/-- What a position ≡ 7 writes back is its block of `Cert.Spec.cell` of the arguments. -/
theorem flushed6_eq (t : Fin cfg0.N) (h1 : t.val % 8 = 7) :
    (dats m 0 c).flushed 6 t = ((cfg0.win 6).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after0_6]
  funext j
  obtain ⟨a, q, rfl⟩ : ∃ (a : Fin 1) (q : Fin 512), j = ix2 a q := ⟨j 0, j 1, eq_ix2 j⟩
  obtain rfl : a = 0 := Subsingleton.elim _ _
  rw [View.read_apply, blk6_emb t q]
  exact out_at m c t h1 q

/-- The result array after the run. -/
theorem final : (dats m 0 c).arrAt 6 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 _ (fun t hf => flushed6_eq m c t ((flush0_6 t).mp hf)) cover6

/-! ## The run, read -/

/-- Every weakly fair execution of the idealized kernel's program terminates with the result row at `Cert.Spec.cell` of
    the arguments as launched, and the arguments unchanged. -/
theorem run_cell : θ_run (defs (F := Ideal)) (onTc (τ := τ) (main (F := Ideal))) ⟨m, fun _ => 0, ρ⟩ (fun r => ∀ c : Dev nD,
      r.2.mem ((c.tc : Thread nD τ).loc main_v8) = cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c),
      ((h c).1 3).trans (((dats m 0 c).arrAt_in 3 rfl _).trans ((A_eq m c 3).trans (V_main_arg7 m c))),
      ((h c).2 main_arg8 (Pipeline.mem_restRefs_of main_arg8 (by decide) (by decide))).trans (V_main_arg8 m c),
      ((h c).1 4).trans (((dats m 0 c).arrAt_in 4 rfl _).trans ((A_eq m c 4).trans (V_main_arg9 m c))),
      ((h c).2 main_arg10 (Pipeline.mem_restRefs_of main_arg10 (by decide) (by decide))).trans (V_main_arg10 m c)⟩) (run_main m ρ)

end Cert.KernelIdeal.CellValue

end
-- ==== Proof.RefValue.lean ====
/-
  The reference program's result row is the specification's cell, entry by entry over the extended reals.

  The reference lays `h` and `x` side by side into one row of 16384 entries, multiplies that row into each gate's
  weight matrix and adds the gate's bias, passes three of the four sums through  1 / (1 + e^(-t))  and the fourth through
  tanh, and combines them with the old cell state. Read at column `q`, each stage is a piece of the specification:
    the joined row at position `k`               is  `cat h x k`         (`cat_apply`),
    a gate's product plus bias at column `q`     is  `pre h x W b q`     (`pre_candidate` … `pre_output`),
    1 / (1 + e^(-t)), the 1 being the word 1.0    is  `logistic t`        (`logistic_expansion`, `logistic_forget` …),
    the closing products, sum and tanh            are `gate`              (`gate_expansion`).
  No law of arithmetic is used: the two sides are one expression, the sum over the contraction axis taken in the same
  order, so nothing is asked of the entries (they may be infinite).
-/
import proofs.«170833_j66554813218861_2_alg».proof.Proof.Gen.ReferenceIdeal.Read
import proofs.«170833_j66554813218861_2_alg».proof.Proof.Spec
import Idealize.ShloMosaic.Lib.Pipeline.Value
import Idealize.ShloMosaic.Lib.ValueIdx
import Idealize.ShloMosaic.PureOps.Ideal

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

/-- The word `0x3F800000` (sign 0, exponent 127, significand 0) denotes the real number 1. -/
theorem one_word : Ideal.ofBits .f32 0x3F800000#32 = 1 := by
  simp [Ideal.ofBits, Ideal.ieee, -EReal.coe_mul]; norm_num

/-- The joined row `[h, x]` at position `k`: `h` at `k` below 8192, `x` at `k - 8192` from there on. -/
theorem cat_apply (x h : (⟨S1x8192, .f32⟩ : BufTy).Contents (Elt Ideal)) (k : Fin 16384) :
    val_main_v0 (F := Ideal) x h (ix2 (0 : Fin 1) k) = Cert.Spec.cat h x k := by
  unfold val_main_v0 Cert.Spec.cat
  by_cases hk : k.val < 8192
  · rw [dif_pos hk]
    exact concatenate_pair_apply_left (t := S1x16384) 1 h x _ (ix2 (0 : Fin 1) k) rfl
      (ix2 (0 : Fin 1) (⟨k.val, hk⟩ : Fin 8192)) (fun b => by
        match b with
        | ⟨0, _⟩ => rfl
        | ⟨1, _⟩ => rfl)
  · rw [dif_neg hk]
    exact concatenate_pair_apply_right (t := S1x16384) 1 h x _ (ix2 (0 : Fin 1) k) rfl rfl
      (ix2 (0 : Fin 1) (⟨k.val - 8192, by have := k.isLt; omega⟩ : Fin 8192))
      (fun b hb => by
        match b with
        | ⟨0, _⟩ => rfl
        | ⟨1, _⟩ => exact absurd rfl hb)
      (Nat.sub_add_cancel (Nat.le_of_not_lt hk))

/-- The candidate gate's pre-activation at column `q`: the contraction pairs position `k` of the joined row with
    entry `(k, q)` of the weight matrix, and the bias is read at `q`. -/
theorem pre_candidate (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v3 (F := Ideal) x h W b (ix2 (0 : Fin 1) q) = Cert.Spec.pre h x W b q := by
  have el : ∀ k : Fin 16384, lidx_main_v1 (ix2 (0 : Fin 1) q) k = ix2 (0 : Fin 1) k := fun k =>
    funext fun a => by match a with | ⟨0, _⟩ => rfl | ⟨1, _⟩ => rfl
  have er : ∀ k : Fin 16384, ridx_main_v1 (ix2 (0 : Fin 1) q) k = ix2 k q := fun k =>
    funext fun a => by match a with | ⟨0, _⟩ => rfl | ⟨1, _⟩ => rfl
  have eb : idx_main_v2 (ix2 (0 : Fin 1) q) = ix1 q :=
    funext fun a => by match a with | ⟨0, _⟩ => rfl
  rw [val_main_v3_apply, val_main_v1_apply, val_main_v2_apply, eb, Ideal.addf_def]
  unfold Cert.Spec.pre Cert.Spec.dot
  refine congrArg (· + b (ix1 q)) (Finset.sum_congr rfl fun k _ => ?_)
  rw [el, er, cat_apply]

/-! The forget, input and output gates' pre-activations are the same expression of the weight matrix and the bias as
    the candidate's, so each is an instance of `pre_candidate`. -/

theorem pre_forget (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v7 (F := Ideal) x h W b (ix2 (0 : Fin 1) q) = Cert.Spec.pre h x W b q := pre_candidate x h W b q

theorem pre_input (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v16 (F := Ideal) x h W b (ix2 (0 : Fin 1) q) = Cert.Spec.pre h x W b q := pre_candidate x h W b q

theorem pre_output (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v25 (F := Ideal) x h W b (ix2 (0 : Fin 1) q) = Cert.Spec.pre h x W b q := pre_candidate x h W b q

/-- 1 / (1 + e^(-t)), written with the host's quotient, sum, exponential and negation, is the logistic function:
    its definition, for every extended real `t`. -/
theorem logistic_expansion (t : EReal) :
    FloatOps.hostDivf (F := Ideal) (φ := .f32) 1 (FloatOps.addf 1 (FloatOps.hostUnary .exp (FloatOps.hostNegf t)))
      = Ideal.logistic t := rfl

/-- The closing arithmetic on one entry:  logistic(po) · tanh (c · logistic(pf) + tanh(pc) · logistic(pi)). -/
theorem gate_expansion (pf pi pc po c : EReal) :
    FloatOps.mulf (F := Ideal) (φ := .f32) (Ideal.logistic po)
        (FloatOps.hostUnary .tanh (FloatOps.addf (FloatOps.mulf c (Ideal.logistic pf))
          (FloatOps.mulf (FloatOps.hostUnary .tanh pc) (Ideal.logistic pi))))
      = Cert.Spec.gate pf pi pc po c := rfl

/-- The forget gate at column `q`: the logistic function of its pre-activation. Both ones are the word 1.0 spread
    over the row. -/
theorem logistic_forget (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v13 (F := Ideal) x h W b (ix2 (0 : Fin 1) q) = Ideal.logistic (Cert.Spec.pre h x W b q) := by
  rw [val_main_v13_apply, val_main_v12_apply, val_main_cst_0_apply, val_main_v11_apply, val_main_v10_apply,
    val_main_cst_apply, val_main_v9_apply, val_main_v8_apply, pre_forget, Ideal.ofBits_def, one_word]
  exact logistic_expansion _

/-! The input and output gates are the same expression of the weight matrix and the bias as the forget gate. -/

theorem logistic_input (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v22 (F := Ideal) x h W b (ix2 (0 : Fin 1) q) = Ideal.logistic (Cert.Spec.pre h x W b q) :=
  logistic_forget x h W b q

theorem logistic_output (x h : (⟨S1x8192, .f32⟩ : BufTy).Contents (Elt Ideal)) (W : (⟨S16384x8192, .f32⟩ : BufTy).Contents (Elt Ideal))
    (b : (⟨S8192, .f32⟩ : BufTy).Contents (Elt Ideal)) (q : Fin 8192) :
    val_main_v31 (F := Ideal) x h W b (ix2 (0 : Fin 1) q) = Ideal.logistic (Cert.Spec.pre h x W b q) :=
  logistic_forget x h W b q

/-- The reference's last stage is the cell: at entry `(0, q)` the output gate times tanh of the new cell state, the
    new cell state the old one times the forget gate plus the candidate times the input gate. -/
theorem stage_eq_cell (x0 x1 x2 : (⟨S1x8192, .f32⟩ : BufTy).Contents (Elt Ideal)) (x3 : (⟨S16384x8192, .f32⟩ : BufTy).Contents (Elt Ideal)) (x4 : (⟨S8192, .f32⟩ : BufTy).Contents (Elt Ideal)) (x5 : (⟨S16384x8192, .f32⟩ : BufTy).Contents (Elt Ideal)) (x6 : (⟨S8192, .f32⟩ : BufTy).Contents (Elt Ideal)) (x7 : (⟨S16384x8192, .f32⟩ : BufTy).Contents (Elt Ideal)) (x8 : (⟨S8192, .f32⟩ : BufTy).Contents (Elt Ideal)) (x9 : (⟨S16384x8192, .f32⟩ : BufTy).Contents (Elt Ideal)) (x10 : (⟨S8192, .f32⟩ : BufTy).Contents (Elt Ideal)) :
    Cert.ReferenceIdeal.Read.val_main_v36 (F := Ideal) x0 x1 x2 x3 x4 x5 x6 x7 x8 x9 x10 = Cert.Spec.cell x0 x1 x2 x3 x4 x5 x6 x7 x8 x9 x10 := by
  funext i
  obtain ⟨a, q, rfl⟩ : ∃ (a : Fin 1) (q : Fin 8192), i = ix2 a q := ⟨i 0, i 1, eq_ix2 i⟩
  obtain rfl : a = 0 := Subsingleton.elim a 0
  rw [val_main_v36_apply, val_main_v35_apply, val_main_v34_apply, val_main_v33_apply, val_main_v32_apply,
    val_main_v4_apply, logistic_output, logistic_forget, logistic_input, pre_candidate]
  exact gate_expansion _ _ _ _ _

/-- Every weakly fair execution of the reference terminates with its result row the cell of the arguments' contents at
    launch, and the arguments unchanged. -/
theorem run_cell (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36) = Cert.Spec.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono
    (fun _ h c => ⟨(h c).1.trans ((val_main_v36_eq (F := Ideal) _ _ _ _ _ _ _ _ _ _ _).trans
      (stage_eq_cell _ _ _ _ _ _ _ _ _ _ _)), (h c).2⟩)
    (Value.run (F := Ideal) m ρ)

end Cert.ReferenceIdeal.RefValue

end
-- ==== Proof.lean ====
/-
  The certificate of one LSTM-cell step computed by a pipelined kernel against the plain array program.

  The kernel lays the previous output `h` and the input `x` side by side, and for each of 16 blocks of 512 gate
  columns walks the 16384-long contraction axis in 8 blocks of 2048: each step adds one block's products of the row
  `[h, x]` with the four gates' weight blocks into four accumulators kept between steps, cleared at the first block; at
  the last block it adds the biases, applies the logistic function to three of the sums and tanh to the fourth, and
  forms  z_o · tanh (c · z_f + z · z_i). The array program computes the four full products, adds the biases, spells the
  logistic function as 1 / (1 + e^(-t)), and forms the same expression.

  Over the extended reals a change of float format is the identity, the logistic function IS 1 / (1 + e^(-t)), and a
  sum over 16384 indices is the sum of its 8 consecutive blocks of 2048 because addition is associative and
  commutative; so both programs compute `Cert.Spec.cell` of the eleven arguments, entry by entry, and no entry needs
  to be finite for that. The idealized kernel is the kernel's own text read at the extended reals (no rewrite was
  applied), so `preserves` has nothing to state. The three frames: each kernel program runs to the end under the
  pipeline's schedule without fault and writes only its own buffers; the array program is a straight line of
  operations that write only their results.
-/
import proofs.«170833_j66554813218861_2_alg».proof.Defs
import proofs.«170833_j66554813218861_2_alg».proof.Proof.Gen.Kernel
import proofs.«170833_j66554813218861_2_alg».proof.Proof.Gen.KernelIdeal
import proofs.«170833_j66554813218861_2_alg».proof.Proof.Gen.ReferenceIdeal
import proofs.«170833_j66554813218861_2_alg».proof.Proof.Gen.Pre_finite_inputs
import proofs.«170833_j66554813218861_2_alg».proof.Proof.K.Frame
import proofs.«170833_j66554813218861_2_alg».proof.Proof.KI.CellValue
import proofs.«170833_j66554813218861_2_alg».proof.Proof.RefValue

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Cell.frame m ρ

/-- So does the idealized kernel program. -/
theorem frame_ki : Cert.frame_KernelIdeal := fun m ρ _ => Cert.KernelIdeal.Cell.frame m ρ

/-- The array program runs to the end and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eleven arguments both programs end with the result row at `Cert.Spec.cell` of
    those arguments: the kernel by its accumulation over the grid, the array program by its operations read entry by
    entry. -/
theorem algebraic : Cert.algebraic_KernelIdeal_ReferenceIdeal := by
  intro m ρ m' ρ' _ hagree
  refine ⟨fun c => Cert.Spec.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.CellValue.run_cell m ρ, ?_⟩
  refine (θ_run Cert.ReferenceIdeal.defs _ _).mono (fun _ h c => ⟨(h c).1.trans ?_, (h c).2⟩)
    (Cert.ReferenceIdeal.RefValue.run_cell m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
